-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v60)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v60) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x16 : Shape := ⟨2, ![128, 16]⟩
abbrev S16 : Shape := ⟨1, ![16]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x16 : S_.BroadcastsInDim S128x16 (![] : Fin 0 → Fin S128x16.rank)
  reducesTo_S128x16_S_d0_1 : S128x16.ReducesTo [0, 1] S_
  bcast_S_S16 : S_.BroadcastsInDim S16 (![] : Fin 0 → Fin S16.rank)
  reducesTo_S16_S_d0 : S16.ReducesTo [0] S_

variable [Facts]

def fn_part1 {F : FTy → Type} [FloatOps F] (main_arg5 : FVec F S16 .f32) (main_v13 : IVec S_ 1) (main_v16 : IVec S128x16 1) : IVec S_ 1 :=
  let main_c_5 : IVec S_ 1 := constantI S_ 1 1#1
  let main_v17 : IVec S_ 1 := (fun x v => Host.reduce IntOp.andi x v reducesTo_S128x16_S_d0_1 h_S_) main_v16 main_c_5
  let main_v18 : IVec S_ 1 := andi main_v13 main_v17
  let main_v19 : FVec F S16 .f32 := Host.absf main_arg5
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  main_v23

def fn {F : FTy → Type} [FloatOps F] (main_arg0 : FVec F S50000x128 .f32) (main_arg1 : IVec S2x800000 32) (main_arg2 : FVec F S128x128 .f32) (main_arg3 : FVec F S128 .f32) (main_arg4 : FVec F S128x16 .f32) (main_arg5 : FVec F S16 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x16 .f32 := Host.absf main_arg4
  let main_cst_4 : FVec F S_ .f32 := constant S_ .f32 0x7F800000#32
  let main_v15 : FVec F S128x16 .f32 := broadcastInDim S128x16 ![] bcast_S_S128x16 main_cst_4
  let main_v16 : IVec S128x16 1 := cmpf .olt main_v14 main_v15
  fn_part1 (F := F) main_arg5 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x16 : Shape := ⟨2, ![128, 16]⟩
abbrev S16 : Shape := ⟨1, ![16]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S5000x128 : Shape := ⟨2, ![5000, 128]⟩
abbrev S850000x128 : Shape := ⟨2, ![850000, 128]⟩
abbrev S1x128 : Shape := ⟨2, ![1, 128]⟩
abbrev S50000x16 : Shape := ⟨2, ![50000, 16]⟩
abbrev S5000x16 : Shape := ⟨2, ![5000, 16]⟩
abbrev S850000x16 : Shape := ⟨2, ![850000, 16]⟩
abbrev S1x16 : Shape := ⟨2, ![1, 16]⟩
abbrev S5000 : Shape := ⟨1, ![5000]⟩
abbrev S5000x1 : Shape := ⟨2, ![5000, 1]⟩

abbrev nBuf : Space → Nat
  | .hbm => 83
  | .vmem => 16
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x16, .f32⟩
  | .hbm, ⟨5, _⟩ => ⟨S16, .f32⟩
  | .hbm, ⟨6, _⟩ => ⟨S50000, .i32⟩
  | .hbm, ⟨7, _⟩ => ⟨S1x800000, .i32⟩
  | .hbm, ⟨8, _⟩ => ⟨S800000, .i32⟩
  | .hbm, ⟨9, _⟩ => ⟨S850000, .i32⟩
  | .hbm, ⟨10, _⟩ => ⟨S1x800000, .i32⟩
  | .hbm, ⟨11, _⟩ => ⟨S800000, .i32⟩
  | .hbm, ⟨12, _⟩ => ⟨S850000, .i32⟩
  | .hbm, ⟨13, _⟩ => ⟨S_, .f32⟩
  | .hbm, ⟨14, _⟩ => ⟨S850000, .f32⟩
  | .hbm, ⟨15, _⟩ => ⟨S_, .f32⟩
  | .hbm, ⟨16, _⟩ => ⟨S50000, .f32⟩
  | .hbm, ⟨17, _⟩ => ⟨S850000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S50000, .f32⟩
  | .hbm, ⟨23, _⟩ => ⟨S_, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S_, .i32⟩
  | .hbm, ⟨28, _⟩ => ⟨S850000, .i32⟩
  | .hbm, ⟨29, _⟩ => ⟨S850000, .i1⟩
  | .hbm, ⟨30, _⟩ => ⟨S_, .i32⟩
  | .hbm, ⟨31, _⟩ => ⟨S850000, .i32⟩
  | .hbm, ⟨32, _⟩ => ⟨S850000, .i32⟩
  | .hbm, ⟨33, _⟩ => ⟨S850000, .i32⟩
  | .hbm, ⟨34, _⟩ => ⟨S850000x1, .i32⟩
  | .hbm, ⟨35, _⟩ => ⟨S850000, .f32⟩
  | .hbm, ⟨36, _⟩ => ⟨S_, .i32⟩
  | .hbm, ⟨37, _⟩ => ⟨S850000, .i32⟩
  | .hbm, ⟨38, _⟩ => ⟨S850000, .i1⟩
  | .hbm, ⟨39, _⟩ => ⟨S_, .i32⟩
  | .hbm, ⟨40, _⟩ => ⟨S850000, .i32⟩
  | .hbm, ⟨41, _⟩ => ⟨S850000, .i32⟩
  | .hbm, ⟨42, _⟩ => ⟨S850000, .i32⟩
  | .hbm, ⟨43, _⟩ => ⟨S850000x1, .i32⟩
  | .hbm, ⟨44, _⟩ => ⟨S850000, .f32⟩
  | .hbm, ⟨45, _⟩ => ⟨S850000, .f32⟩
  | .hbm, ⟨46, _⟩ => ⟨S50000x128, .f32⟩
  | .hbm, ⟨47, _⟩ => ⟨S_, .i32⟩
  | .hbm, ⟨48, _⟩ => ⟨S850000, .i32⟩
  | .hbm, ⟨49, _⟩ => ⟨S850000, .i1⟩
  | .hbm, ⟨50, _⟩ => ⟨S_, .i32⟩
  | .hbm, ⟨51, _⟩ => ⟨S850000, .i32⟩
  | .hbm, ⟨52, _⟩ => ⟨S850000, .i32⟩
  | .hbm, ⟨53, _⟩ => ⟨S850000, .i32⟩
  | .hbm, ⟨54, _⟩ => ⟨S850000x1, .i32⟩
  | .hbm, ⟨55, _⟩ => ⟨S850000x128, .f32⟩
  | .hbm, ⟨56, _⟩ => ⟨S850000x1, .f32⟩
  | .hbm, ⟨57, _⟩ => ⟨S850000x128, .f32⟩
  | .hbm, ⟨58, _⟩ => ⟨S850000x128, .f32⟩
  | .hbm, ⟨59, _⟩ => ⟨S_, .f32⟩
  | .hbm, ⟨60, _⟩ => ⟨S50000x128, .f32⟩
  | .hbm, ⟨61, _⟩ => ⟨S850000x1, .i32⟩
  | .hbm, ⟨62, _⟩ => ⟨S50000x128, .f32⟩
  | .hbm, ⟨63, _⟩ => ⟨S1x128, .f32⟩
  | .hbm, ⟨64, _⟩ => ⟨S50000x16, .f32⟩
  | .hbm, ⟨65, _⟩ => ⟨S_, .i32⟩
  | .hbm, ⟨66, _⟩ => ⟨S850000, .i32⟩
  | .hbm, ⟨67, _⟩ => ⟨S850000, .i1⟩
  | .hbm, ⟨68, _⟩ => ⟨S_, .i32⟩
  | .hbm, ⟨69, _⟩ => ⟨S850000, .i32⟩
  | .hbm, ⟨70, _⟩ => ⟨S850000, .i32⟩
  | .hbm, ⟨71, _⟩ => ⟨S850000, .i32⟩
  | .hbm, ⟨72, _⟩ => ⟨S850000x1, .i32⟩
  | .hbm, ⟨73, _⟩ => ⟨S850000x16, .f32⟩
  | .hbm, ⟨74, _⟩ => ⟨S850000x1, .f32⟩
  | .hbm, ⟨75, _⟩ => ⟨S850000x16, .f32⟩
  | .hbm, ⟨76, _⟩ => ⟨S850000x16, .f32⟩
  | .hbm, ⟨77, _⟩ => ⟨S_, .f32⟩
  | .hbm, ⟨78, _⟩ => ⟨S50000x16, .f32⟩
  | .hbm, ⟨79, _⟩ => ⟨S850000x1, .i32⟩
  | .hbm, ⟨80, _⟩ => ⟨S50000x16, .f32⟩
  | .hbm, ⟨81, _⟩ => ⟨S1x16, .f32⟩
  | .hbm, ⟨82, _⟩ => ⟨S50000x16, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S128x16, .f32⟩
  | .local _ .vmem, ⟨9, _⟩ => ⟨S5000x16, .f32⟩
  | .local _ .vmem, ⟨10, _⟩ => ⟨S5000x16, .f32⟩
  | .local _ .vmem, ⟨11, _⟩ => ⟨S5000x16, .f32⟩
  | .local _ .vmem, ⟨12, _⟩ => ⟨S5000x16, .f32⟩
  | .local _ .vmem, ⟨13, _⟩ => ⟨S1x16, .f32⟩
  | .local _ .vmem, ⟨14, _⟩ => ⟨S5000x16, .f32⟩
  | .local _ .vmem, ⟨15, _⟩ => ⟨S5000x16, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_c_9 : Ref sig .tc := ⟨.hbm, 65, rfl⟩
abbrev main_v46 : Ref sig .tc := ⟨.hbm, 66, rfl⟩
abbrev main_v47 : Ref sig .tc := ⟨.hbm, 67, rfl⟩
abbrev main_c_10 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_cst_11 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x16 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x16 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x16 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x16 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x16 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  shapeCasts_S128_S1x128 : S128.ShapeCasts S1x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  shapeCasts_S5000x128_S5000x128 : S5000x128.ShapeCasts S5000x128
  inb_S128x16_S128x16_0_0 : ∀ a, (![0, 0] : Fin 2 → Nat) a + S128x16.size a ≤ S128x16.size a
  h_S128x16 : 0 < S128x16.numel
  inb_S5000x16_S5000x16_0_0 : ∀ a, (![0, 0] : Fin 2 → Nat) a + S5000x16.size a ≤ S5000x16.size a
  h_S5000x16 : 0 < S5000x16.numel
  bcast_S850000x1_S850000x16_0_1 : S850000x1.BroadcastsInDim S850000x16 (![0, 1] : Fin 2 → Fin S850000x16.rank)
  bcast_S_S50000x16 : S_.BroadcastsInDim S50000x16 (![] : Fin 0 → Fin S50000x16.rank)
  shapeCasts_S16_S1x16 : S16.ShapeCasts S1x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S5000x16 : S1x16.Broadcasts S5000x16
  shapeCasts_S5000x16_S5000x16 : S5000x16.ShapeCasts S5000x16
  reduces_S5000x16_S5000 : S5000x16.Reduces [1] S5000
  shapeCasts_S5000_S5000x1 : S5000.ShapeCasts S5000x1
  broadcasts_S5000x1_S5000x16 : S5000x1.Broadcasts S5000x16
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S5000x128_S128x128_S5000x128_1_0_0_1_n_n_wf : DotDims.WF S5000x128 S128x128 S5000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S5000x128_S128x16_S5000x16_1_0_0_1_n_n_wf : DotDims.WF S5000x128 S128x16 S5000x16 [1] [0] [0] [1] [] []
  gather_S50000x16_S850000x1_S850000x16_1_0_n_n_0_1_116_wf : GatherDims.WF S50000x16 S850000x1 S850000x16 [1] [0] [] [0] [] 1 ![1, 16]
  scatter_S50000x16_S850000x1_S850000x16_1_0_0_1_wf : ScatterDims.WF S50000x16 S850000x1 S850000x16 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x16.size a ≤ S128x16.size a
  hwx1_2 : ∀ i : grid1.Coords, EltTy.bits .f32 = 32 ∨ (Rect.block (s := S128x16) S128x16.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x16.size a ≤ S50000x16.size a
  hwx1_3 : ∀ i : grid1.Coords, EltTy.bits .f32 = 32 ∨ (Rect.block (s := S50000x16) S5000x16.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x16.size a ≤ S50000x16.size a
  hwx2_0 : ∀ i : grid2.Coords, EltTy.bits .f32 = 32 ∨ (Rect.block (s := S50000x16) S5000x16.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x16.size a ≤ S1x16.size a
  hwx2_1 : ∀ i : grid2.Coords, EltTy.bits .f32 = 32 ∨ (Rect.block (s := S1x16) S1x16.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x16.size a ≤ S50000x16.size a
  hwx2_2 : ∀ i : grid2.Coords, EltTy.bits .f32 = 32 ∨ (Rect.block (s := S50000x16) S5000x16.size (cc2_transform_2 i) (hinb2_2 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S5000x128_S128x16_S5000x16_1_0_0_1_n_n : DotDims S5000x128 S128x16 S5000x16 where
  lhsContracting := [1]
  rhsContracting := [0]
  lhsNonContracting := [0]
  rhsNonContracting := [1]
  lhsBatch := []
  rhsBatch := []
  wf := dot_S5000x128_S128x16_S5000x16_1_0_0_1_n_n_wf
def gather_S50000x16_S850000x1_S850000x16_1_0_n_n_0_1_116 : GatherDims S50000x16 S850000x1 S850000x16 where
  offsetDims := [1]
  collapsedSliceDims := [0]
  operandBatchingDims := []
  startIndicesBatchingDims := []
  startIndexMap := [0]
  indexVectorDim := 1
  sliceSizes := ![1, 16]
  wf := gather_S50000x16_S850000x1_S850000x16_1_0_n_n_0_1_116_wf
def scatter_S50000x16_S850000x1_S850000x16_1_0_0_1 : ScatterDims S50000x16 S850000x1 S850000x16 where
  updateWindowDims := [1]
  insertedWindowDims := [0]
  scatterDimsToOperandDims := [0]
  indexVectorDim := 1
  wf := scatter_S50000x16_S850000x1_S850000x16_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S128x16.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v45) S5000x16.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v58) S5000x16.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v59) S1x16.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v60) S5000x16.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x16 : Shape := ⟨2, ![128, 16]⟩
abbrev S16 : Shape := ⟨1, ![16]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S1x128 : Shape := ⟨2, ![1, 128]⟩
abbrev S50000x16 : Shape := ⟨2, ![50000, 16]⟩
abbrev S850000x16 : Shape := ⟨2, ![850000, 16]⟩
abbrev S1x16 : Shape := ⟨2, ![1, 16]⟩
abbrev S50000x1 : Shape := ⟨2, ![50000, 1]⟩

abbrev nBuf : Space → Nat
  | .hbm => 104
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x16, .f32⟩
  | .hbm, ⟨5, _⟩ => ⟨S16, .f32⟩
  | .hbm, ⟨6, _⟩ => ⟨S50000, .i32⟩
  | .hbm, ⟨7, _⟩ => ⟨S1x800000, .i32⟩
  | .hbm, ⟨8, _⟩ => ⟨S800000, .i32⟩
  | .hbm, ⟨9, _⟩ => ⟨S850000, .i32⟩
  | .hbm, ⟨10, _⟩ => ⟨S1x800000, .i32⟩
  | .hbm, ⟨11, _⟩ => ⟨S800000, .i32⟩
  | .hbm, ⟨12, _⟩ => ⟨S850000, .i32⟩
  | .hbm, ⟨13, _⟩ => ⟨S_, .f32⟩
  | .hbm, ⟨14, _⟩ => ⟨S850000, .f32⟩
  | .hbm, ⟨15, _⟩ => ⟨S_, .f32⟩
  | .hbm, ⟨16, _⟩ => ⟨S50000, .f32⟩
  | .hbm, ⟨17, _⟩ => ⟨S850000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S50000, .f32⟩
  | .hbm, ⟨23, _⟩ => ⟨S_, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S_, .i32⟩
  | .hbm, ⟨28, _⟩ => ⟨S850000, .i32⟩
  | .hbm, ⟨29, _⟩ => ⟨S850000, .i1⟩
  | .hbm, ⟨30, _⟩ => ⟨S_, .i32⟩
  | .hbm, ⟨31, _⟩ => ⟨S850000, .i32⟩
  | .hbm, ⟨32, _⟩ => ⟨S850000, .i32⟩
  | .hbm, ⟨33, _⟩ => ⟨S850000, .i32⟩
  | .hbm, ⟨34, _⟩ => ⟨S850000x1, .i32⟩
  | .hbm, ⟨35, _⟩ => ⟨S850000, .f32⟩
  | .hbm, ⟨36, _⟩ => ⟨S_, .i32⟩
  | .hbm, ⟨37, _⟩ => ⟨S850000, .i32⟩
  | .hbm, ⟨38, _⟩ => ⟨S850000, .i1⟩
  | .hbm, ⟨39, _⟩ => ⟨S_, .i32⟩
  | .hbm, ⟨40, _⟩ => ⟨S850000, .i32⟩
  | .hbm, ⟨41, _⟩ => ⟨S850000, .i32⟩
  | .hbm, ⟨42, _⟩ => ⟨S850000, .i32⟩
  | .hbm, ⟨43, _⟩ => ⟨S850000x1, .i32⟩
  | .hbm, ⟨44, _⟩ => ⟨S850000, .f32⟩
  | .hbm, ⟨45, _⟩ => ⟨S850000, .f32⟩
  | .hbm, ⟨46, _⟩ => ⟨S50000x128, .f32⟩
  | .hbm, ⟨47, _⟩ => ⟨S_, .i32⟩
  | .hbm, ⟨48, _⟩ => ⟨S850000, .i32⟩
  | .hbm, ⟨49, _⟩ => ⟨S850000, .i1⟩
  | .hbm, ⟨50, _⟩ => ⟨S_, .i32⟩
  | .hbm, ⟨51, _⟩ => ⟨S850000, .i32⟩
  | .hbm, ⟨52, _⟩ => ⟨S850000, .i32⟩
  | .hbm, ⟨53, _⟩ => ⟨S850000, .i32⟩
  | .hbm, ⟨54, _⟩ => ⟨S850000x1, .i32⟩
  | .hbm, ⟨55, _⟩ => ⟨S850000x128, .f32⟩
  | .hbm, ⟨56, _⟩ => ⟨S850000x1, .f32⟩
  | .hbm, ⟨57, _⟩ => ⟨S850000x128, .f32⟩
  | .hbm, ⟨58, _⟩ => ⟨S850000x128, .f32⟩
  | .hbm, ⟨59, _⟩ => ⟨S_, .f32⟩
  | .hbm, ⟨60, _⟩ => ⟨S50000x128, .f32⟩
  | .hbm, ⟨61, _⟩ => ⟨S850000x1, .i32⟩
  | .hbm, ⟨62, _⟩ => ⟨S50000x128, .f32⟩
  | .hbm, ⟨63, _⟩ => ⟨S1x128, .f32⟩
  | .hbm, ⟨64, _⟩ => ⟨S50000x128, .f32⟩
  | .hbm, ⟨65, _⟩ => ⟨S50000x128, .f32⟩
  | .hbm, ⟨66, _⟩ => ⟨S_, .f32⟩
  | .hbm, ⟨67, _⟩ => ⟨S50000x128, .f32⟩
  | .hbm, ⟨68, _⟩ => ⟨S50000x128, .f32⟩
  | .hbm, ⟨69, _⟩ => ⟨S50000x16, .f32⟩
  | .hbm, ⟨70, _⟩ => ⟨S_, .i32⟩
  | .hbm, ⟨71, _⟩ => ⟨S850000, .i32⟩
  | .hbm, ⟨72, _⟩ => ⟨S850000, .i1⟩
  | .hbm, ⟨73, _⟩ => ⟨S_, .i32⟩
  | .hbm, ⟨74, _⟩ => ⟨S850000, .i32⟩
  | .hbm, ⟨75, _⟩ => ⟨S850000, .i32⟩
  | .hbm, ⟨76, _⟩ => ⟨S850000, .i32⟩
  | .hbm, ⟨77, _⟩ => ⟨S850000x1, .i32⟩
  | .hbm, ⟨78, _⟩ => ⟨S850000x16, .f32⟩
  | .hbm, ⟨79, _⟩ => ⟨S850000x1, .f32⟩
  | .hbm, ⟨80, _⟩ => ⟨S850000x16, .f32⟩
  | .hbm, ⟨81, _⟩ => ⟨S850000x16, .f32⟩
  | .hbm, ⟨82, _⟩ => ⟨S_, .f32⟩
  | .hbm, ⟨83, _⟩ => ⟨S50000x16, .f32⟩
  | .hbm, ⟨84, _⟩ => ⟨S850000x1, .i32⟩
  | .hbm, ⟨85, _⟩ => ⟨S50000x16, .f32⟩
  | .hbm, ⟨86, _⟩ => ⟨S1x16, .f32⟩
  | .hbm, ⟨87, _⟩ => ⟨S50000x16, .f32⟩
  | .hbm, ⟨88, _⟩ => ⟨S50000x16, .f32⟩
  | .hbm, ⟨89, _⟩ => ⟨S_, .f32⟩
  | .hbm, ⟨90, _⟩ => ⟨S50000, .f32⟩
  | .hbm, ⟨91, _⟩ => ⟨S_, .f32⟩
  | .hbm, ⟨92, _⟩ => ⟨S50000, .f32⟩
  | .hbm, ⟨93, _⟩ => ⟨S50000, .f32⟩
  | .hbm, ⟨94, _⟩ => ⟨S50000x1, .f32⟩
  | .hbm, ⟨95, _⟩ => ⟨S50000x16, .f32⟩
  | .hbm, ⟨96, _⟩ => ⟨S50000x16, .f32⟩
  | .hbm, ⟨97, _⟩ => ⟨S50000x16, .f32⟩
  | .hbm, ⟨98, _⟩ => ⟨S_, .f32⟩
  | .hbm, ⟨99, _⟩ => ⟨S50000, .f32⟩
  | .hbm, ⟨100, _⟩ => ⟨S50000x1, .f32⟩
  | .hbm, ⟨101, _⟩ => ⟨S50000x1, .f32⟩
  | .hbm, ⟨102, _⟩ => ⟨S50000x16, .f32⟩
  | .hbm, ⟨103, _⟩ => ⟨S50000x16, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_c_9 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_call2_cst : Ref sig .tc := ⟨.hbm, 89, rfl⟩
abbrev main_call2_v0 : Ref sig .tc := ⟨.hbm, 90, rfl⟩
abbrev main_call2_cst_0 : Ref sig .tc := ⟨.hbm, 91, rfl⟩
abbrev main_call2_v1 : Ref sig .tc := ⟨.hbm, 92, rfl⟩
abbrev main_call2_v2 : Ref sig .tc := ⟨.hbm, 93, rfl⟩
abbrev main_call2_v3 : Ref sig .tc := ⟨.hbm, 94, rfl⟩
abbrev main_call2_v4 : Ref sig .tc := ⟨.hbm, 95, rfl⟩
abbrev main_call2_v5 : Ref sig .tc := ⟨.hbm, 96, rfl⟩
abbrev main_call2_v6 : Ref sig .tc := ⟨.hbm, 97, rfl⟩
abbrev main_call2_cst_1 : Ref sig .tc := ⟨.hbm, 98, rfl⟩
abbrev main_call2_v7 : Ref sig .tc := ⟨.hbm, 99, rfl⟩
abbrev main_call2_v8 : Ref sig .tc := ⟨.hbm, 100, rfl⟩
abbrev main_call2_v9 : Ref sig .tc := ⟨.hbm, 101, rfl⟩
abbrev main_call2_v10 : Ref sig .tc := ⟨.hbm, 102, rfl⟩
abbrev main_v65 : Ref sig .tc := ⟨.hbm, 103, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S850000x1_S850000x16_0_1 : S850000x1.BroadcastsInDim S850000x16 (![0, 1] : Fin 2 → Fin S850000x16.rank)
  bcast_S_S50000x16 : S_.BroadcastsInDim S50000x16 (![] : Fin 0 → Fin S50000x16.rank)
  bcast_S16_S1x16_1 : S16.BroadcastsInDim S1x16 (![1] : Fin 1 → Fin S1x16.rank)
  bcast_S1x16_S50000x16_0_1 : S1x16.BroadcastsInDim S50000x16 (![0, 1] : Fin 2 → Fin S50000x16.rank)
  reducesTo_S50000x16_S50000_d1 : S50000x16.ReducesTo [1] S50000
  h_S_ : 0 < S_.numel
  bcast_S50000_S50000x1_0 : S50000.BroadcastsInDim S50000x1 (![0] : Fin 1 → Fin S50000x1.rank)
  bcast_S50000x1_S50000x16_0_1 : S50000x1.BroadcastsInDim S50000x16 (![0, 1] : Fin 2 → Fin S50000x16.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x128_S128x128_S50000x128_1_0_0_1_n_n_wf : DotDims.WF S50000x128 S128x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S50000x128_S128x16_S50000x16_1_0_0_1_n_n_wf : DotDims.WF S50000x128 S128x16 S50000x16 [1] [0] [0] [1] [] []
  gather_S50000x16_S850000x1_S850000x16_1_0_n_n_0_1_116_wf : GatherDims.WF S50000x16 S850000x1 S850000x16 [1] [0] [] [0] [] 1 ![1, 16]
  scatter_S50000x16_S850000x1_S850000x16_1_0_0_1_wf : ScatterDims.WF S50000x16 S850000x1 S850000x16 [1] [0] [0] 1

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S50000x128_S128x16_S50000x16_1_0_0_1_n_n : DotDims S50000x128 S128x16 S50000x16 where
  lhsContracting := [1]
  rhsContracting := [0]
  lhsNonContracting := [0]
  rhsNonContracting := [1]
  lhsBatch := []
  rhsBatch := []
  wf := dot_S50000x128_S128x16_S50000x16_1_0_0_1_n_n_wf
def gather_S50000x16_S850000x1_S850000x16_1_0_n_n_0_1_116 : GatherDims S50000x16 S850000x1 S850000x16 where
  offsetDims := [1]
  collapsedSliceDims := [0]
  operandBatchingDims := []
  startIndicesBatchingDims := []
  startIndexMap := [0]
  indexVectorDim := 1
  sliceSizes := ![1, 16]
  wf := gather_S50000x16_S850000x1_S850000x16_1_0_n_n_0_1_116_wf
def scatter_S50000x16_S850000x1_S850000x16_1_0_0_1 : ScatterDims S50000x16 S850000x1 S850000x16 where
  updateWindowDims := [1]
  insertedWindowDims := [0]
  scatterDimsToOperandDims := [0]
  indexVectorDim := 1
  wf := scatter_S50000x16_S850000x1_S850000x16_1_0_0_1_wf

class Facts : Prop extends Facts₀ where

variable [Facts]
-- ==== Proof.KernelRun.lean ====
/-
  The idealized kernel's run with its result named.

  The program is three kernel launches among stretches of host operations. Its frame run ends in a thread state that
  holds every unscoped buffer at the last boundary's contents — the fold of the host stretches and of each launch's
  write-backs over the launch memory. Reading the RESULT buffer (and, as the frame does, each argument buffer) in that
  state against the final memory gives: every weakly fair execution terminates with the result at the fold's value
  there and the arguments as launched. The later modules compute the fold's value at the result.
-/
import proofs.«123071_j62199716381547_1_alg».proof.Proof.Gen.KernelIdeal.Frame

set_option maxRecDepth 16384

noncomputable section

namespace Cert.KernelIdeal.ResultRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result buffer at the last
    boundary's contents and every argument as launched. -/
theorem run : θ_run defs (onTc (τ := τ) (main (F := F))) ⟨m, fun _ => 0, ρ⟩ (fun r => ∀ c : Dev nD,
      r.2.mem ((c.tc : Thread nD τ).loc main_v60) = W8 m ρ c (Proc.devRef .tc main_v60)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v60 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c)⟩)

end Cert.KernelIdeal.ResultRun

end
-- ==== Proof.LibTypedRef.lean ====
/-
  Typed references to buffers: moving contents between a value's type and its buffer's type.

  A typed reference carries a buffer together with a proof that the buffer's type is the value's type. Contents are moved
  from the value's type to the buffer's, and back, by a cast along that proof. A cast never changes the value: a value
  moved out and back is itself, and a moved value equals any value it is equal to across the two types.
-/
import Idealize.ShloMosaic.Lib.StableHlo

noncomputable section

namespace Cert.LibTypedRef

open Idealize.ShloMosaic

variable {sig : RefSig} {T : BufTy} {Val : EltTy → Type}

/-- Contents moved to the buffer's type and back are unchanged. -/
theorem ofBuf_toBuf (x : StableHlo.TRef sig T) (v : T.Contents Val) : x.ofBuf (x.toBuf v) = v :=
  eq_of_heq ((cast_heq _ _).trans (cast_heq _ _))

/-- Contents read at the value's type are any value of that type they equal across the two types. -/
theorem ofBuf_of_heq (x : StableHlo.TRef sig T) (v : x.ref.ty.Contents Val) (w : T.Contents Val) (h : HEq v w) :
    x.ofBuf v = w :=
  eq_of_heq ((cast_heq _ v).trans h)

/-- Contents written at the buffer's type are any value of that type they equal across the two types. -/
theorem toBuf_of_heq (x : StableHlo.TRef sig T) (v : T.Contents Val) (w : x.ref.ty.Contents Val) (h : HEq v w) :
    x.toBuf v = w :=
  eq_of_heq ((cast_heq _ v).trans h)

end Cert.LibTypedRef

end
-- ==== Proof.EdgeData.lean ====
/-
  The graph's edge data at the first launch.

  Before the first launch the host computes, from the edge list alone, the source rows (the first edge row followed by
  0 … 49999 for the self loops), the destination rows (the second edge row followed by the same), the in-degree by a
  scatter-add of ones, its inverse square root where positive, and the per-edge weight: the product of that value gathered
  at the source and at the destination. The two programs apply the SAME host operations here, so each of these buffers,
  when the first launch is entered, holds the reference's stage of the edge list; the float arguments are untouched.
  The three host stretches are read one at a time, each from the contents the one before left.
-/
import proofs.«123071_j62199716381547_1_alg».proof.Proof.Gen.KernelIdeal.Frame
import proofs.«123071_j62199716381547_1_alg».proof.Proof.RefRead
import proofs.«123071_j62199716381547_1_alg».proof.Proof.LibTypedRef
import Idealize.ShloMosaic.Lib.StableHlo.Run

set_option maxRecDepth 16384

noncomputable section

open Idealize.ShloMosaic Idealize.ShloMosaic.TcCoe Idealize.SL.Sem Idealize.ShloMosaic.StableHlo

namespace Cert.KernelIdeal.Boundary

open Cert.KernelIdeal Cert.KernelIdeal.Gen

variable (m : (ℓ : Loc nD τ sig) → Buf (Elt Ideal) ℓ) (ρ : Dev nD → PrngReg) (c : Dev nD)
open Cert.LibTypedRef

/-- The six argument arrays as launched, typed as the reference's stages take them. -/
abbrev a0 : (⟨Cert.ReferenceIdeal.S50000x128, .f32⟩ : BufTy).Contents (Elt Ideal) := m ((c : Thread nD τ).loc main_arg0)
abbrev a1 : (⟨Cert.ReferenceIdeal.S2x800000, .i32⟩ : BufTy).Contents (Elt Ideal) := m ((c : Thread nD τ).loc main_arg1)
abbrev a2 : (⟨Cert.ReferenceIdeal.S128x128, .f32⟩ : BufTy).Contents (Elt Ideal) := m ((c : Thread nD τ).loc main_arg2)
abbrev a3 : (⟨Cert.ReferenceIdeal.S128, .f32⟩ : BufTy).Contents (Elt Ideal) := m ((c : Thread nD τ).loc main_arg3)
abbrev a4 : (⟨Cert.ReferenceIdeal.S128x16, .f32⟩ : BufTy).Contents (Elt Ideal) := m ((c : Thread nD τ).loc main_arg4)
abbrev a5 : (⟨Cert.ReferenceIdeal.S16, .f32⟩ : BufTy).Contents (Elt Ideal) := m ((c : Thread nD τ).loc main_arg5)

/-! ## After the first stretch: source and destination rows, the degree's sign and inverse square root -/

theorem first_rows : W1 m ρ c (Proc.devRef .tc main_v3) = Cert.ReferenceIdeal.ReadP.val_main_v3 (F := Ideal) (a1 m c) := by
  show StableHlo.after hostOps0 (W0 m ρ c) (Proc.devRef .tc main_v3) = _
  after_results
  try rfl
theorem first_cols : W1 m ρ c (Proc.devRef .tc main_v6) = Cert.ReferenceIdeal.ReadP.val_main_v6 (F := Ideal) (a1 m c) := by
  show StableHlo.after hostOps0 (W0 m ρ c) (Proc.devRef .tc main_v6) = _
  after_results
  try rfl
theorem first_positive : W1 m ρ c (Proc.devRef .tc main_v12) = Cert.ReferenceIdeal.ReadP.val_main_v12 (F := Ideal) (a1 m c) := by
  show StableHlo.after hostOps0 (W0 m ρ c) (Proc.devRef .tc main_v12) = _
  after_results
  try rfl
theorem first_rsqrt : W1 m ρ c (Proc.devRef .tc main_v13) = Cert.ReferenceIdeal.ReadP.val_main_v13 (F := Ideal) (a1 m c) := by
  show StableHlo.after hostOps0 (W0 m ρ c) (Proc.devRef .tc main_v13) = _
  after_results
  try rfl
theorem first_zero : W1 m ρ c (Proc.devRef .tc main_cst_2) = Cert.ReferenceIdeal.ReadP.val_main_cst_2 (F := Ideal) := by
  show StableHlo.after hostOps0 (W0 m ρ c) (Proc.devRef .tc main_cst_2) = _
  after_results
  try rfl
theorem first_arg0 : W1 m ρ c (Proc.devRef .tc main_arg0) = m ((c : Thread nD τ).loc main_arg0) := by
  show StableHlo.after hostOps0 (W0 m ρ c) (Proc.devRef .tc main_arg0) = _
  after_results
  try rfl
theorem first_arg2 : W1 m ρ c (Proc.devRef .tc main_arg2) = m ((c : Thread nD τ).loc main_arg2) := by
  show StableHlo.after hostOps0 (W0 m ρ c) (Proc.devRef .tc main_arg2) = _
  after_results
  try rfl
theorem first_arg3 : W1 m ρ c (Proc.devRef .tc main_arg3) = m ((c : Thread nD τ).loc main_arg3) := by
  show StableHlo.after hostOps0 (W0 m ρ c) (Proc.devRef .tc main_arg3) = _
  after_results
  try rfl
theorem first_arg4 : W1 m ρ c (Proc.devRef .tc main_arg4) = m ((c : Thread nD τ).loc main_arg4) := by
  show StableHlo.after hostOps0 (W0 m ρ c) (Proc.devRef .tc main_arg4) = _
  after_results
  try rfl
theorem first_arg5 : W1 m ρ c (Proc.devRef .tc main_arg5) = m ((c : Thread nD τ).loc main_arg5) := by
  show StableHlo.after hostOps0 (W0 m ρ c) (Proc.devRef .tc main_arg5) = _
  after_results
  try rfl

/-! ## After the outlined select: the degree's inverse square root where the degree is positive, zero elsewhere -/

theorem second_dinv : W2 m ρ c (Proc.devRef .tc main_v14) = Cert.ReferenceIdeal.ReadP.val_main_v14 (F := Ideal) (a1 m c) := by
  have h0 := first_positive m ρ c
  have h1 := first_rsqrt m ρ c
  have h2 := first_zero m ρ c
  show StableHlo.after hostOps0_1 (W1 m ρ c) (Proc.devRef .tc main_v14) = _
  generalize W1 m ρ c = Z at h0 h1 h2 ⊢
  after_results
  rw [h0, h1, h2]
  simp only [ofBuf_toBuf]
  rw [ofBuf_of_heq (TRef.of (T := ⟨S50000, .i1⟩) main_v12) (Cert.ReferenceIdeal.ReadP.val_main_v12 (F := Ideal) (a1 m c)) (Cert.ReferenceIdeal.ReadP.val_main_v12 (F := Ideal) (a1 m c)) HEq.rfl,
    ofBuf_of_heq (TRef.of (T := ⟨S50000, .f32⟩) main_v13) (Cert.ReferenceIdeal.ReadP.val_main_v13 (F := Ideal) (a1 m c)) (Cert.ReferenceIdeal.ReadP.val_main_v13 (F := Ideal) (a1 m c)) HEq.rfl,
    ofBuf_of_heq (TRef.of (T := ⟨S_, .f32⟩) main_cst_2) (Cert.ReferenceIdeal.ReadP.val_main_cst_2 (F := Ideal)) (Cert.ReferenceIdeal.ReadP.val_main_cst_2 (F := Ideal)) HEq.rfl]
  refine toBuf_of_heq _ _ _ (heq_of_eq ?_)
  unfold Cert.ReferenceIdeal.ReadP.val_main_v14 Cert.ReferenceIdeal.ReadP.val_main_call0_v1 Cert.ReferenceIdeal.ReadP.val_main_call0_v0
  rfl
theorem second_rows : W2 m ρ c (Proc.devRef .tc main_v3) = Cert.ReferenceIdeal.ReadP.val_main_v3 (F := Ideal) (a1 m c) := by
  have h0 := first_rows m ρ c
  show StableHlo.after hostOps0_1 (W1 m ρ c) (Proc.devRef .tc main_v3) = _
  generalize W1 m ρ c = Z at h0 ⊢
  after_results
  exact h0
theorem second_cols : W2 m ρ c (Proc.devRef .tc main_v6) = Cert.ReferenceIdeal.ReadP.val_main_v6 (F := Ideal) (a1 m c) := by
  have h0 := first_cols m ρ c
  show StableHlo.after hostOps0_1 (W1 m ρ c) (Proc.devRef .tc main_v6) = _
  generalize W1 m ρ c = Z at h0 ⊢
  after_results
  exact h0
theorem second_arg0 : W2 m ρ c (Proc.devRef .tc main_arg0) = m ((c : Thread nD τ).loc main_arg0) := by
  have h0 := first_arg0 m ρ c
  show StableHlo.after hostOps0_1 (W1 m ρ c) (Proc.devRef .tc main_arg0) = _
  generalize W1 m ρ c = Z at h0 ⊢
  after_results
  exact h0
theorem second_arg2 : W2 m ρ c (Proc.devRef .tc main_arg2) = m ((c : Thread nD τ).loc main_arg2) := by
  have h0 := first_arg2 m ρ c
  show StableHlo.after hostOps0_1 (W1 m ρ c) (Proc.devRef .tc main_arg2) = _
  generalize W1 m ρ c = Z at h0 ⊢
  after_results
  exact h0
theorem second_arg3 : W2 m ρ c (Proc.devRef .tc main_arg3) = m ((c : Thread nD τ).loc main_arg3) := by
  have h0 := first_arg3 m ρ c
  show StableHlo.after hostOps0_1 (W1 m ρ c) (Proc.devRef .tc main_arg3) = _
  generalize W1 m ρ c = Z at h0 ⊢
  after_results
  exact h0
theorem second_arg4 : W2 m ρ c (Proc.devRef .tc main_arg4) = m ((c : Thread nD τ).loc main_arg4) := by
  have h0 := first_arg4 m ρ c
  show StableHlo.after hostOps0_1 (W1 m ρ c) (Proc.devRef .tc main_arg4) = _
  generalize W1 m ρ c = Z at h0 ⊢
  after_results
  exact h0
theorem second_arg5 : W2 m ρ c (Proc.devRef .tc main_arg5) = m ((c : Thread nD τ).loc main_arg5) := by
  have h0 := first_arg5 m ρ c
  show StableHlo.after hostOps0_1 (W1 m ρ c) (Proc.devRef .tc main_arg5) = _
  generalize W1 m ρ c = Z at h0 ⊢
  after_results
  exact h0

/-! ## When the first launch is entered: the per-edge weight -/

theorem entry_weight : W3 m ρ c (Proc.devRef .tc main_v29) = Cert.ReferenceIdeal.ReadP.val_main_v29 (F := Ideal) (a1 m c) := by
  have h0 := second_dinv m ρ c
  have h1 := second_rows m ρ c
  have h2 := second_cols m ρ c
  show StableHlo.after hostOps0_2 (W2 m ρ c) (Proc.devRef .tc main_v29) = _
  generalize W2 m ρ c = Z at h0 h1 h2 ⊢
  after_results_simp
  rw [h0, h1, h2]
  unfold Cert.ReferenceIdeal.ReadP.val_main_v29 Cert.ReferenceIdeal.ReadP.val_main_v21 Cert.ReferenceIdeal.ReadP.val_main_v28 Cert.ReferenceIdeal.ReadP.val_main_v20 Cert.ReferenceIdeal.ReadP.val_main_v27 Cert.ReferenceIdeal.ReadP.val_main_v19 Cert.ReferenceIdeal.ReadP.val_main_v26 Cert.ReferenceIdeal.ReadP.val_main_v16 Cert.ReferenceIdeal.ReadP.val_main_v18 Cert.ReferenceIdeal.ReadP.val_main_v23 Cert.ReferenceIdeal.ReadP.val_main_v25 Cert.ReferenceIdeal.ReadP.val_main_v15 Cert.ReferenceIdeal.ReadP.val_main_v17 Cert.ReferenceIdeal.ReadP.val_main_v22 Cert.ReferenceIdeal.ReadP.val_main_v24 Cert.ReferenceIdeal.ReadP.val_main_c Cert.ReferenceIdeal.ReadP.val_main_c_3 Cert.ReferenceIdeal.ReadP.val_main_c_4 Cert.ReferenceIdeal.ReadP.val_main_c_5
  rfl
theorem entry_rows : W3 m ρ c (Proc.devRef .tc main_v3) = Cert.ReferenceIdeal.ReadP.val_main_v3 (F := Ideal) (a1 m c) := by
  have h0 := second_rows m ρ c
  show StableHlo.after hostOps0_2 (W2 m ρ c) (Proc.devRef .tc main_v3) = _
  generalize W2 m ρ c = Z at h0 ⊢
  after_results_simp
  exact h0
theorem entry_cols : W3 m ρ c (Proc.devRef .tc main_v6) = Cert.ReferenceIdeal.ReadP.val_main_v6 (F := Ideal) (a1 m c) := by
  have h0 := second_cols m ρ c
  show StableHlo.after hostOps0_2 (W2 m ρ c) (Proc.devRef .tc main_v6) = _
  generalize W2 m ρ c = Z at h0 ⊢
  after_results_simp
  exact h0
theorem entry_arg0 : W3 m ρ c (Proc.devRef .tc main_arg0) = m ((c : Thread nD τ).loc main_arg0) := by
  have h0 := second_arg0 m ρ c
  show StableHlo.after hostOps0_2 (W2 m ρ c) (Proc.devRef .tc main_arg0) = _
  generalize W2 m ρ c = Z at h0 ⊢
  after_results_simp
  exact h0
theorem entry_arg2 : W3 m ρ c (Proc.devRef .tc main_arg2) = m ((c : Thread nD τ).loc main_arg2) := by
  have h0 := second_arg2 m ρ c
  show StableHlo.after hostOps0_2 (W2 m ρ c) (Proc.devRef .tc main_arg2) = _
  generalize W2 m ρ c = Z at h0 ⊢
  after_results_simp
  exact h0
theorem entry_arg3 : W3 m ρ c (Proc.devRef .tc main_arg3) = m ((c : Thread nD τ).loc main_arg3) := by
  have h0 := second_arg3 m ρ c
  show StableHlo.after hostOps0_2 (W2 m ρ c) (Proc.devRef .tc main_arg3) = _
  generalize W2 m ρ c = Z at h0 ⊢
  after_results_simp
  exact h0
theorem entry_arg4 : W3 m ρ c (Proc.devRef .tc main_arg4) = m ((c : Thread nD τ).loc main_arg4) := by
  have h0 := second_arg4 m ρ c
  show StableHlo.after hostOps0_2 (W2 m ρ c) (Proc.devRef .tc main_arg4) = _
  generalize W2 m ρ c = Z at h0 ⊢
  after_results_simp
  exact h0
theorem entry_arg5 : W3 m ρ c (Proc.devRef .tc main_arg5) = m ((c : Thread nD τ).loc main_arg5) := by
  have h0 := second_arg5 m ρ c
  show StableHlo.after hostOps0_2 (W2 m ρ c) (Proc.devRef .tc main_arg5) = _
  generalize W2 m ρ c = Z at h0 ⊢
  after_results_simp
  exact h0

end Cert.KernelIdeal.Boundary

end
-- ==== Proof.SoftmaxRow.lean ====
/- The log-softmax of one row of sixteen extended reals, as a function of the row alone.
   Both programs compute it in the same way: the row's maximum is folded from the pattern of -∞,
   then taken once more against -∞; the row is shifted by it; the shifted row's exponentials are
   summed; the logarithm of that sum is subtracted from the shifted row. The word for -∞ is kept
   as the literal bit pattern: it is the same word on both sides and is never evaluated. -/
import Idealize.ShloMosaic.PureOps.Ideal
import Mathlib.Algebra.BigOperators.Group.Finset.Basic
import Mathlib.Data.Finset.Fold

noncomputable section

namespace Cert.SoftmaxRow

open Idealize.ShloMosaic

/-- The row's maximum: the fold of `max` over the sixteen entries from the pattern of -∞, then
    `max` against that pattern once more. -/
def rowMax (z : Fin 16 → EReal) : EReal :=
  max (Ideal.ofBits .f32 0xFF800000#32)
    ((Finset.univ : Finset (Fin 16)).fold max (Ideal.ofBits .f32 0xFF800000#32) z)

/-- The log-softmax of the row `z` at position `j`: with `m` the row's maximum and `s k = z k - m`,
    it is `s j - log (∑ k, exp (s k))`. -/
def logSoftmaxRow (z : Fin 16 → EReal) (j : Fin 16) : EReal :=
  (z j - rowMax z) - Ideal.log (∑ k : Fin 16, Ideal.exp (z k - rowMax z))

end Cert.SoftmaxRow

end
-- ==== Proof.Spec.lean ====
/-
  The three dense stages of the network as whole-array functions on the extended reals, index by index.

  * `dense x w`: the matrix product of an [n, 128] array with a [128, p] array, entry (r, c) the sum over the 128
    contraction coordinates of x (r, k) · w (k, c).
  * `biasRelu a b`: a bias row b (a [1, 128] array) added along each row, then the positive part: max (a (r, k) + b (0, k)) 0.
  * `biasLogSoftmax a b`: a bias row b (a [1, 16] array) added along each row of 16, then the row's log-softmax.
-/
import proofs.«123071_j62199716381547_1_alg».proof.Proof.SoftmaxRow
import Idealize.ShloMosaic.PureOps.Ideal
import Idealize.ShloMosaic.Lib.ValueIdx

noncomputable section

open scoped BigOperators

namespace Cert.Spec

open Idealize.ShloMosaic Idealize.ShloMosaic.ValueIdx

/-- The row coordinate of a rank-2 index, as a number below the first extent. -/
abbrev rowOf {n k : ℕ} (i : (⟨2, ![n, k]⟩ : Shape).Idx) : Fin n := ⟨(i 0).val, idx2_lt0 i⟩
/-- The column coordinate of a rank-2 index, as a number below the second extent. -/
abbrev colOf {n k : ℕ} (i : (⟨2, ![n, k]⟩ : Shape).Idx) : Fin k := ⟨(i 1).val, idx2_lt1 i⟩

/-- The matrix product over the 128 contraction coordinates. -/
def dense {n p : ℕ} (x : FVec Ideal ⟨2, ![n, 128]⟩ .f32) (w : FVec Ideal ⟨2, ![128, p]⟩ .f32) : FVec Ideal ⟨2, ![n, p]⟩ .f32 :=
  fun i => ∑ k : Fin 128, x (ix2 (rowOf i) k) * w (ix2 k (colOf i))

theorem dense_apply {n p : ℕ} (x : FVec Ideal ⟨2, ![n, 128]⟩ .f32) (w : FVec Ideal ⟨2, ![128, p]⟩ .f32) (r : Fin n) (c : Fin p) :
    dense x w (ix2 r c) = ∑ k : Fin 128, x (ix2 r k) * w (ix2 k c) := rfl

/-- A bias added along each row, then the positive part. -/
def biasRelu {n : ℕ} (a : FVec Ideal ⟨2, ![n, 128]⟩ .f32) (b : FVec Ideal ⟨2, ![1, 128]⟩ .f32) : FVec Ideal ⟨2, ![n, 128]⟩ .f32 :=
  fun i => max (a (ix2 (rowOf i) (colOf i)) + b (ix2 (0 : Fin 1) (colOf i))) (Ideal.ofBits .f32 0x00000000#32)

theorem biasRelu_apply {n : ℕ} (a : FVec Ideal ⟨2, ![n, 128]⟩ .f32) (b : FVec Ideal ⟨2, ![1, 128]⟩ .f32) (r : Fin n) (k : Fin 128) :
    biasRelu a b (ix2 r k) = max (a (ix2 r k) + b (ix2 (0 : Fin 1) k)) (Ideal.ofBits .f32 0x00000000#32) := rfl

/-- A bias added along each row of 16, then the row's log-softmax. -/
def biasLogSoftmax {n : ℕ} (a : FVec Ideal ⟨2, ![n, 16]⟩ .f32) (b : FVec Ideal ⟨2, ![1, 16]⟩ .f32) : FVec Ideal ⟨2, ![n, 16]⟩ .f32 :=
  fun i => Cert.SoftmaxRow.logSoftmaxRow (fun k => a (ix2 (rowOf i) k) + b (ix2 (0 : Fin 1) k)) (colOf i)

theorem biasLogSoftmax_apply {n : ℕ} (a : FVec Ideal ⟨2, ![n, 16]⟩ .f32) (b : FVec Ideal ⟨2, ![1, 16]⟩ .f32) (r : Fin n) (c : Fin 16) :
    biasLogSoftmax a b (ix2 r c) = Cert.SoftmaxRow.logSoftmaxRow (fun k => a (ix2 r k) + b (ix2 (0 : Fin 1) k)) c := rfl

end Cert.Spec

end
-- ==== Proof.LibPlainDot.lean ====
/-
  A plain matrix product read at an index, on the extended reals.

  For dimension numbers that contract the left operand's second axis against the right operand's first — an
  [M, K] array times a [K, P] array — the product into a zero accumulator, read at row `p` and column `q`, is
  `Σ k, l (p, k) · r (k, q)` over the K contraction coordinates. The contraction's index set has one axis; the sum is
  re-indexed through that axis's coordinate. The two facts about the free axes (the left index keeps the row, the right
  index keeps the column) are taken as hypotheses, since for given dimension numbers they hold by computation.
-/
import Idealize.ShloMosaic.PureOps.Ideal.Laws
import Idealize.ShloMosaic.Lib.ValueIdx

noncomputable section

open scoped BigOperators

namespace Cert.LibPlainDot

open Idealize.ShloMosaic Idealize.ShloMosaic.ValueIdx

/-- The matrix product into the zero accumulator at (p, q) is the sum over the contraction coordinate of the left
    operand at (p, k) times the right operand at (k, q). -/
theorem matmul_zero_apply {M K P : ℕ} {φ₁ φ₂ : FTy}
    (D : DotDims ⟨2, ![M, K]⟩ ⟨2, ![K, P]⟩ ⟨2, ![M, P]⟩)
    (hlc : D.lhsContracting = [1]) (hrc : D.rhsContracting = [0])
    (hl0 : ∀ (j : (⟨2, ![M, P]⟩ : Shape).Idx) (c : D.contr.Idx), (D.lhsIdx j c 0).val = (j 0).val)
    (hr1 : ∀ (j : (⟨2, ![M, P]⟩ : Shape).Idx) (c : D.contr.Idx), (D.rhsIdx j c 1).val = (j 1).val)
    (hrank : D.contr.rank = 1) (hsize : D.contr.size ⟨0, by omega⟩ = K)
    (prec : Option ContractPrecision)
    (l : FVec Ideal ⟨2, ![M, K]⟩ φ₁) (r : FVec Ideal ⟨2, ![K, P]⟩ φ₂) (p : Fin M) (q : Fin P) :
    FloatOps.matmul D prec l r (constant ⟨2, ![M, P]⟩ .f32 0x00000000#32) (ix2 p q)
      = ∑ k : Fin K, l (ix2 p k) * r (ix2 k q) := by
  rw [Ideal.matmul_constant_zero_apply, ← Equiv.sum_comp (contrEquiv1 D K hrank hsize).symm]
  refine Finset.sum_congr rfl fun k _ => ?_
  have hk := contrEquiv1_symm_val D K hrank hsize k
  have el : D.lhsIdx (ix2 p q) ((contrEquiv1 D K hrank hsize).symm k) = ix2 p k := funext fun a => Fin.ext (by
    match a with
    | ⟨0, _⟩ => exact hl0 _ _
    | ⟨1, _⟩ => exact (D.lhsIdx_val_of_single hlc _ _).trans hk)
  have er : D.rhsIdx (ix2 p q) ((contrEquiv1 D K hrank hsize).symm k) = ix2 k q := funext fun a => Fin.ext (by
    match a with
    | ⟨0, _⟩ => exact (D.rhsIdx_val_of_single hrc _ _).trans hk
    | ⟨1, _⟩ => exact hr1 _ _)
  rw [el, er]

end Cert.LibPlainDot

end
-- ==== Proof.DenseKernel.lean ====
/-
  The two matrix-product kernel bodies read at an index, on the extended reals.

  On the extended reals a narrowing of the float format is the identity, so the first body, a product of the
  narrowed operands into a zero accumulator, is at row `p` and column `q` the plain sum
  `Σ k, x (p, k) · w (k, q)`. The second body first adds a bias row (one row, broadcast over all rows) to its
  left operand and takes the maximum with zero, elementwise, and then multiplies: at `(p, q)` it is
  `Σ k, max (a (p, k) + b (0, k)) 0 · w (k, q)`.
-/
import proofs.«123071_j62199716381547_1_alg».proof.Proof.Gen.KernelIdeal.Skeleton
import proofs.«123071_j62199716381547_1_alg».proof.Proof.LibPlainDot
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.DenseKernel

open Idealize.ShloMosaic Idealize.ShloMosaic.ValueIdx

/-! ## The dimension numbers of the two products: contract the left operand's axis 1 with the right operand's axis 0 -/

/-- The left operand's index keeps the result's row (first product). -/
theorem lhs_row_first (j : Cert.KernelIdeal.S5000x128.Idx)
    (c : Cert.KernelIdeal.dot_S5000x128_S128x128_S5000x128_1_0_0_1_n_n.contr.Idx) :
    (Cert.KernelIdeal.dot_S5000x128_S128x128_S5000x128_1_0_0_1_n_n.lhsIdx j c 0).val = (j 0).val := by
  unfold DotDims.lhsIdx
  rw [dif_neg (show ¬(0 : Fin Cert.KernelIdeal.S5000x128.rank) ∈ Cert.KernelIdeal.dot_S5000x128_S128x128_S5000x128_1_0_0_1_n_n.lhsBatch by decide),
    dif_pos (show (0 : Fin Cert.KernelIdeal.S5000x128.rank) ∈ Cert.KernelIdeal.dot_S5000x128_S128x128_S5000x128_1_0_0_1_n_n.lhsNonContracting by decide)]
  rfl

/-- The right operand's index keeps the result's column (first product). -/
theorem rhs_col_first (j : Cert.KernelIdeal.S5000x128.Idx)
    (c : Cert.KernelIdeal.dot_S5000x128_S128x128_S5000x128_1_0_0_1_n_n.contr.Idx) :
    (Cert.KernelIdeal.dot_S5000x128_S128x128_S5000x128_1_0_0_1_n_n.rhsIdx j c 1).val = (j 1).val := by
  unfold DotDims.rhsIdx
  rw [dif_neg (show ¬(1 : Fin Cert.KernelIdeal.S128x128.rank) ∈ Cert.KernelIdeal.dot_S5000x128_S128x128_S5000x128_1_0_0_1_n_n.rhsBatch by decide),
    dif_pos (show (1 : Fin Cert.KernelIdeal.S128x128.rank) ∈ Cert.KernelIdeal.dot_S5000x128_S128x128_S5000x128_1_0_0_1_n_n.rhsNonContracting by decide)]
  rfl

/-- The left operand's index keeps the result's row (second product). -/
theorem lhs_row_second (j : Cert.KernelIdeal.S5000x16.Idx)
    (c : Cert.KernelIdeal.dot_S5000x128_S128x16_S5000x16_1_0_0_1_n_n.contr.Idx) :
    (Cert.KernelIdeal.dot_S5000x128_S128x16_S5000x16_1_0_0_1_n_n.lhsIdx j c 0).val = (j 0).val := by
  unfold DotDims.lhsIdx
  rw [dif_neg (show ¬(0 : Fin Cert.KernelIdeal.S5000x128.rank) ∈ Cert.KernelIdeal.dot_S5000x128_S128x16_S5000x16_1_0_0_1_n_n.lhsBatch by decide),
    dif_pos (show (0 : Fin Cert.KernelIdeal.S5000x128.rank) ∈ Cert.KernelIdeal.dot_S5000x128_S128x16_S5000x16_1_0_0_1_n_n.lhsNonContracting by decide)]
  rfl

/-- The right operand's index keeps the result's column (second product). -/
theorem rhs_col_second (j : Cert.KernelIdeal.S5000x16.Idx)
    (c : Cert.KernelIdeal.dot_S5000x128_S128x16_S5000x16_1_0_0_1_n_n.contr.Idx) :
    (Cert.KernelIdeal.dot_S5000x128_S128x16_S5000x16_1_0_0_1_n_n.rhsIdx j c 1).val = (j 1).val := by
  unfold DotDims.rhsIdx
  rw [dif_neg (show ¬(1 : Fin Cert.KernelIdeal.S128x16.rank) ∈ Cert.KernelIdeal.dot_S5000x128_S128x16_S5000x16_1_0_0_1_n_n.rhsBatch by decide),
    dif_pos (show (1 : Fin Cert.KernelIdeal.S128x16.rank) ∈ Cert.KernelIdeal.dot_S5000x128_S128x16_S5000x16_1_0_0_1_n_n.rhsNonContracting by decide)]
  rfl

/-! ## The first body -/

/-- The first body at `(p, q)`: the sum over the contraction coordinate of `x (p, k) · w (k, q)`. -/
theorem first_apply (x : Vec Ideal Cert.KernelIdeal.S5000x128 .f32) (w : Vec Ideal Cert.KernelIdeal.S128x128 .f32)
    (p : Fin 5000) (q : Fin 128) :
    Cert.KernelIdeal.Gen.k0_pay1 (F := Ideal) x w (ix2 p q) = ∑ k : Fin 128, x (ix2 p k) * w (ix2 k q) := by
  unfold Cert.KernelIdeal.Gen.k0_pay1
  refine (Cert.LibPlainDot.matmul_zero_apply (M := 5000) (K := 128) (P := 128)
    Cert.KernelIdeal.dot_S5000x128_S128x128_S5000x128_1_0_0_1_n_n rfl rfl lhs_row_first rhs_col_first rfl rfl none _ _ p q).trans ?_
  rfl

/-! ## The second body -/

/-- The second body at `(p, q)`: the left operand plus the bias row, cut below at zero, times the right operand,
    summed over the contraction coordinate. -/
theorem second_apply (b : Vec Ideal Cert.KernelIdeal.S1x128 .f32) (a : Vec Ideal Cert.KernelIdeal.S5000x128 .f32)
    (w : Vec Ideal Cert.KernelIdeal.S128x16 .f32) (p : Fin 5000) (q : Fin 16) :
    Cert.KernelIdeal.Gen.k1_pay1 (F := Ideal) b a w (ix2 p q)
      = ∑ k : Fin 128, max (a (ix2 p k) + b (ix2 (0 : Fin 1) k)) (Ideal.ofBits .f32 0x00000000#32) * w (ix2 k q) := by
  unfold Cert.KernelIdeal.Gen.k1_pay1
  refine (Cert.LibPlainDot.matmul_zero_apply (M := 5000) (K := 128) (P := 16)
    Cert.KernelIdeal.dot_S5000x128_S128x16_S5000x16_1_0_0_1_n_n rfl rfl lhs_row_second rhs_col_second rfl rfl none _ _ p q).trans ?_
  refine Finset.sum_congr rfl fun k _ => ?_
  rw [truncf_apply, truncf_apply, maximumf_apply, addf_apply, broadcast_apply, shapeCast_self, shapeCast_self,
    shapeCast_self, broadcastTo_1b_ab_apply]
  rfl

end Cert.DenseKernel

end
-- ==== Proof.Region0.lean ====
/-
  The first launch: a [50000, 128] array times a [128, 128] array, ten row blocks of 5000.

  At grid point t the body sees rows 5000·t … 5000·t + 4999 of the left operand and the whole right operand, and writes
  their product back as rows 5000·t … of the result. Entry (r, c) of a block's product is the sum over k of
  x (5000·t + r, k) · w (k, c): the entry (5000·t + r, c) of the whole product. The ten blocks tile the result, so after
  the launch the result array is the whole product, whatever the region found in its buffers (`V`).
-/
import proofs.«123071_j62199716381547_1_alg».proof.Proof.Gen.KernelIdeal.Frame
import proofs.«123071_j62199716381547_1_alg».proof.Proof.Spec
import proofs.«123071_j62199716381547_1_alg».proof.Proof.DenseKernel
import Idealize.ShloMosaic.Lib.Pipeline.Value
import Idealize.ShloMosaic.Lib.Tactic

noncomputable section

open scoped BigOperators
open Idealize.ShloMosaic Idealize.ShloMosaic.TcCoe Idealize.SL.Sem Idealize.ShloMosaic.ValueIdx
open Idealize.ShloMosaic.Pipeline (Dat)

namespace Cert.KernelIdeal.Stage0

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: the left operand's and the result's row block is the grid point, every other block
    coordinate is 0. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The left operand's block at point t is rows 5000·t … of the array. -/
theorem rows_apply (c : Dev nD) (t : Fin cfg0.N) (y : S5000x128.Idx) (i : S50000x128.Idx)
    (h0 : (i 0).val = t.val * 5000 + (y 0).val) (h1 : (i 1).val = (y 1).val) :
    (iblk0 V c 0 t : Vec Ideal S5000x128 .f32) y = (V c main_arg0 : S50000x128.Idx → Elt Ideal .f32) i := by
  obtain ⟨e0, e1, -⟩ := idx_facts t
  unfold iblk0
  rw [View.read_apply]
  show V c main_arg0 (((cfg0.win 0).blk t).view.emb y) = V c main_arg0 i
  refine congrArg (V c main_arg0) (funext fun a => Fin.ext ?_)
  match a with
  | ⟨0, _⟩ => show win0_0.index t (0 : Fin 2) * 5000 + 1 * (y 0).val = (i 0).val; rw [e0, h0]; omega
  | ⟨1, _⟩ => show win0_0.index t (1 : Fin 2) * 128 + 1 * (y 1).val = (i 1).val; rw [e1, h1]; omega

/-- The right operand's one block is the whole array. -/
theorem weights_apply (c : Dev nD) (t : Fin cfg0.N) (y : S128x128.Idx) :
    (iblk0 V c 1 t : Vec Ideal S128x128 .f32) y = (V c main_arg2 : S128x128.Idx → Elt Ideal .f32) y := by
  obtain ⟨-, -, e0, e1, -⟩ := idx_facts t
  unfold iblk0
  rw [View.read_apply]
  show V c main_arg2 (((cfg0.win 1).blk t).view.emb y) = V c main_arg2 y
  refine congrArg (V c main_arg2) (funext fun a => Fin.ext ?_)
  match a with
  | ⟨0, _⟩ => show win0_1.index t (0 : Fin 2) * 128 + 1 * (y 0).val = (y 0).val; rw [e0]; omega
  | ⟨1, _⟩ => show win0_1.index t (1 : Fin 2) * 128 + 1 * (y 1).val = (y 1).val; rw [e1]; omega

/-- A row block's product is the corresponding rows of the whole product: over any block x whose entries are rows
    5000·t … of X, and any w equal to W. -/
theorem point_eq (x : Vec Ideal S5000x128 .f32) (w : Vec Ideal S128x128 .f32)
    (X : FVec Ideal S50000x128 .f32) (W : FVec Ideal S128x128 .f32) (t : ℕ)
    (hx : ∀ (y : S5000x128.Idx) (i : S50000x128.Idx), (i 0).val = t * 5000 + (y 0).val → (i 1).val = (y 1).val → x y = X i)
    (hw : ∀ y : S128x128.Idx, w y = W y)
    (j : S5000x128.Idx) (i : S50000x128.Idx) (h0 : (i 0).val = t * 5000 + (j 0).val) (h1 : (i 1).val = (j 1).val) :
    k0_pay1 (F := Ideal) x w j = Cert.Spec.dense (n := 50000) (p := 128) X W i := by
  obtain ⟨p, q, rfl⟩ : ∃ (p : Fin 5000) (q : Fin 128), j = ix2 p q := ⟨j 0, j 1, eq_ix2 j⟩
  obtain ⟨r, s, rfl⟩ : ∃ (r : Fin 50000) (s : Fin 128), i = ix2 r s := ⟨i 0, i 1, eq_ix2 i⟩
  have hs : s = q := Fin.ext h1
  subst hs
  refine (Cert.DenseKernel.first_apply x w p s).trans ?_
  refine (Finset.sum_congr rfl fun k _ => ?_).trans (Cert.Spec.dense_apply X W r s).symm
  rw [hx (ix2 p k) (ix2 r k) h0 rfl, hw]

/-- What point t writes back is block t of the whole product of the two arrays as the region finds them. -/
theorem flushed_eq (c : Dev nD) (t : Fin cfg0.N) :
    (dat0 V c).flushed 2 t = ((cfg0.win 2).blk t).view.read (Elt Ideal) (Cert.Spec.dense (n := 50000) (p := 128) (V c main_arg0) (V c main_arg2)) := by
  show (cfg0.win 2).cut (grid0.coords t) ((dat0 V c).after 2 t) = _
  rw [after0_2]
  unfold out0_2
  rw [View.canon_unit_zero hz]
  simp only [View.ld_unit_zero (S := S5000x128) hz, View.ld_unit_zero (S := S128x128) hz]
  obtain ⟨-, -, -, -, e0, e1⟩ := idx_facts t
  funext j
  show k0_pay1 (F := Ideal) (iblk0 V c 0 t) (iblk0 V c 1 t) j = Cert.Spec.dense (n := 50000) (p := 128) (V c main_arg0) (V c main_arg2) (((cfg0.win 2).blk t).view.emb j)
  refine point_eq (iblk0 V c 0 t) (iblk0 V c 1 t) (V c main_arg0) (V c main_arg2) t.val
    (fun y i h0 h1 => rows_apply V c t y i h0 h1) (fun y => weights_apply V c t y) j _ ?_ ?_
  · show win0_2.index t (0 : Fin 2) * 5000 + 1 * (j 0).val = _; rw [e0]; omega
  · show win0_2.index t (1 : Fin 2) * 128 + 1 * (j 1).val = _; rw [e1]; omega

/-- The result array after the launch is the whole product. -/
theorem final (c : Dev nD) :
    (dat0 V c).arrAt 2 cfg0.N = Cert.Spec.dense (n := 50000) (p := 128) (V c main_arg0) (V c main_arg2) :=
  (dat0 V c).arrAt_eq_of_cover 2 (Cert.Spec.dense (n := 50000) (p := 128) (V c main_arg0) (V c main_arg2)) (fun t _ => flushed_eq V c t) fun i => by
    have hN : cfg0.N = 10 := N_0
    have hi0 : (i 0).val < 50000 := (i 0).isLt
    have hi1 : (i 1).val < 128 := (i 1).isLt
    have hlt : (i 0).val / 5000 < cfg0.N := by rw [hN]; omega
    refine ⟨⟨(i 0).val / 5000, hlt⟩, flush0_2 _, ?_⟩
    show i ∈ ((View.whole main_v30).slice (win0_2.rect ⟨(i 0).val / 5000, hlt⟩)).set
    rw [View.set_slice_whole, Rect.mem_set_unit]
    obtain ⟨-, -, -, -, e0, e1⟩ := idx_facts ⟨(i 0).val / 5000, hlt⟩
    intro a
    match a with
    | ⟨0, _⟩ =>
      show win0_2.index ⟨(i 0).val / 5000, hlt⟩ (0 : Fin 2) * 5000 ≤ (i 0).val ∧ (i 0).val < win0_2.index ⟨(i 0).val / 5000, hlt⟩ (0 : Fin 2) * 5000 + 5000
      rw [e0]; show (i 0).val / 5000 * 5000 ≤ (i 0).val ∧ (i 0).val < (i 0).val / 5000 * 5000 + 5000; omega
    | ⟨1, _⟩ =>
      show win0_2.index ⟨(i 0).val / 5000, hlt⟩ (1 : Fin 2) * 128 ≤ (i 1).val ∧ (i 1).val < win0_2.index ⟨(i 0).val / 5000, hlt⟩ (1 : Fin 2) * 128 + 128
      rw [e1]; omega

end Cert.KernelIdeal.Stage0

end
-- ==== Proof.Region1.lean ====
/-
  The second launch: bias, positive part, and a [50000, 128] by [128, 16] product, ten row blocks of 5000.

  At grid point t the body sees rows 5000·t … of the aggregated features, the whole [1, 128] bias row and the whole
  [128, 16] weight array; it adds the bias along each row, takes the positive part and multiplies. Entry (r, c) of what
  it writes back is the sum over k of max (a (5000·t + r, k) + b (0, k)) 0 · w (k, c): entry (5000·t + r, c) of the product
  of the whole rectified array with the weights. The ten blocks tile the result.
-/
import proofs.«123071_j62199716381547_1_alg».proof.Proof.Gen.KernelIdeal.Frame
import proofs.«123071_j62199716381547_1_alg».proof.Proof.Spec
import proofs.«123071_j62199716381547_1_alg».proof.Proof.DenseKernel
import Idealize.ShloMosaic.Lib.Pipeline.Value
import Idealize.ShloMosaic.Lib.Tactic

noncomputable section

open scoped BigOperators
open Idealize.ShloMosaic Idealize.ShloMosaic.TcCoe Idealize.SL.Sem Idealize.ShloMosaic.ValueIdx
open Idealize.ShloMosaic.Pipeline (Dat)

namespace Cert.KernelIdeal.Stage1

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: the features' and the result's row block is the grid point, every other block
    coordinate is 0. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The features' block at point t is rows 5000·t … of the array. -/
theorem rows_apply (c : Dev nD) (t : Fin cfg1.N) (y : S5000x128.Idx) (i : S50000x128.Idx)
    (h0 : (i 0).val = t.val * 5000 + (y 0).val) (h1 : (i 1).val = (y 1).val) :
    (iblk1 V c 0 t : Vec Ideal S5000x128 .f32) y = (V c main_v43 : S50000x128.Idx → Elt Ideal .f32) i := by
  obtain ⟨e0, e1, -⟩ := idx_facts t
  unfold iblk1
  rw [View.read_apply]
  show V c main_v43 (((cfg1.win 0).blk t).view.emb y) = V c main_v43 i
  refine congrArg (V c main_v43) (funext fun a => Fin.ext ?_)
  match a with
  | ⟨0, _⟩ => show win1_0.index t (0 : Fin 2) * 5000 + 1 * (y 0).val = (i 0).val; rw [e0, h0]; omega
  | ⟨1, _⟩ => show win1_0.index t (1 : Fin 2) * 128 + 1 * (y 1).val = (i 1).val; rw [e1, h1]; omega

/-- The bias row's one block is the whole [1, 128] array. -/
theorem bias_apply (c : Dev nD) (t : Fin cfg1.N) (y : S1x128.Idx) :
    (iblk1 V c 1 t : Vec Ideal S1x128 .f32) y = (V c main_v44 : S1x128.Idx → Elt Ideal .f32) y := by
  obtain ⟨-, -, e0, e1, -⟩ := idx_facts t
  unfold iblk1
  rw [View.read_apply]
  show V c main_v44 (((cfg1.win 1).blk t).view.emb y) = V c main_v44 y
  refine congrArg (V c main_v44) (funext fun a => Fin.ext ?_)
  match a with
  | ⟨0, _⟩ => show win1_1.index t (0 : Fin 2) * 1 + 1 * (y 0).val = (y 0).val; rw [e0]; omega
  | ⟨1, _⟩ => show win1_1.index t (1 : Fin 2) * 128 + 1 * (y 1).val = (y 1).val; rw [e1]; omega

/-- The weights' one block is the whole [128, 16] array. -/
theorem weights_apply (c : Dev nD) (t : Fin cfg1.N) (y : S128x16.Idx) :
    (iblk1 V c 2 t : Vec Ideal S128x16 .f32) y = (V c main_arg4 : S128x16.Idx → Elt Ideal .f32) y := by
  obtain ⟨-, -, -, -, e0, e1, -⟩ := idx_facts t
  unfold iblk1
  rw [View.read_apply]
  show V c main_arg4 (((cfg1.win 2).blk t).view.emb y) = V c main_arg4 y
  refine congrArg (V c main_arg4) (funext fun a => Fin.ext ?_)
  match a with
  | ⟨0, _⟩ => show win1_2.index t (0 : Fin 2) * 128 + 1 * (y 0).val = (y 0).val; rw [e0]; omega
  | ⟨1, _⟩ => show win1_2.index t (1 : Fin 2) * 16 + 1 * (y 1).val = (y 1).val; rw [e1]; omega

/-- A row block's rectified product is the corresponding rows of the whole one: over any block a whose entries are rows
    5000·t … of A, any b equal to B and any w equal to W. -/
theorem point_eq (b : Vec Ideal S1x128 .f32) (a : Vec Ideal S5000x128 .f32) (w : Vec Ideal S128x16 .f32)
    (A : FVec Ideal S50000x128 .f32) (B : FVec Ideal S1x128 .f32) (W : FVec Ideal S128x16 .f32) (t : ℕ)
    (ha : ∀ (y : S5000x128.Idx) (i : S50000x128.Idx), (i 0).val = t * 5000 + (y 0).val → (i 1).val = (y 1).val → a y = A i)
    (hb : ∀ y : S1x128.Idx, b y = B y) (hw : ∀ y : S128x16.Idx, w y = W y)
    (j : S5000x16.Idx) (i : S50000x16.Idx) (h0 : (i 0).val = t * 5000 + (j 0).val) (h1 : (i 1).val = (j 1).val) :
    k1_pay1 (F := Ideal) b a w j = Cert.Spec.dense (n := 50000) (p := 16) (Cert.Spec.biasRelu (n := 50000) A B) W i := by
  obtain ⟨p, q, rfl⟩ : ∃ (p : Fin 5000) (q : Fin 16), j = ix2 p q := ⟨j 0, j 1, eq_ix2 j⟩
  obtain ⟨r, s, rfl⟩ : ∃ (r : Fin 50000) (s : Fin 16), i = ix2 r s := ⟨i 0, i 1, eq_ix2 i⟩
  have hs : s = q := Fin.ext h1
  subst hs
  refine (Cert.DenseKernel.second_apply b a w p s).trans ?_
  refine (Finset.sum_congr rfl fun k _ => ?_).trans (Cert.Spec.dense_apply (Cert.Spec.biasRelu (n := 50000) A B) W r s).symm
  rw [ha (ix2 p k) (ix2 r k) h0 rfl, hb, hw]
  rfl

/-- What point t writes back is block t of the whole rectified product of the arrays as the region finds them. -/
theorem flushed_eq (c : Dev nD) (t : Fin cfg1.N) :
    (dat1 V c).flushed 3 t = ((cfg1.win 3).blk t).view.read (Elt Ideal)
      (Cert.Spec.dense (n := 50000) (p := 16) (Cert.Spec.biasRelu (n := 50000) (V c main_v43) (V c main_v44)) (V c main_arg4)) := by
  show (cfg1.win 3).cut (grid1.coords t) ((dat1 V c).after 3 t) = _
  rw [after1_3]
  unfold out1_3
  rw [View.canon_unit_zero hz]
  simp only [View.ld_unit_zero (S := S5000x128) hz, View.ld_unit_zero (S := S1x128) hz, View.ld_unit_zero (S := S128x16) hz]
  obtain ⟨-, -, -, -, -, -, e0, e1⟩ := idx_facts t
  funext j
  show k1_pay1 (F := Ideal) (iblk1 V c 1 t) (iblk1 V c 0 t) (iblk1 V c 2 t) j
    = Cert.Spec.dense (n := 50000) (p := 16) (Cert.Spec.biasRelu (n := 50000) (V c main_v43) (V c main_v44)) (V c main_arg4) (((cfg1.win 3).blk t).view.emb j)
  refine point_eq (iblk1 V c 1 t) (iblk1 V c 0 t) (iblk1 V c 2 t) (V c main_v43) (V c main_v44) (V c main_arg4) t.val
    (fun y i h0 h1 => rows_apply V c t y i h0 h1) (fun y => bias_apply V c t y) (fun y => weights_apply V c t y) j _ ?_ ?_
  · show win1_3.index t (0 : Fin 2) * 5000 + 1 * (j 0).val = _; rw [e0]; omega
  · show win1_3.index t (1 : Fin 2) * 16 + 1 * (j 1).val = _; rw [e1]; omega

/-- The result array after the launch is the whole rectified product. -/
theorem final (c : Dev nD) :
    (dat1 V c).arrAt 3 cfg1.N
      = Cert.Spec.dense (n := 50000) (p := 16) (Cert.Spec.biasRelu (n := 50000) (V c main_v43) (V c main_v44)) (V c main_arg4) :=
  (dat1 V c).arrAt_eq_of_cover 3 (Cert.Spec.dense (n := 50000) (p := 16) (Cert.Spec.biasRelu (n := 50000) (V c main_v43) (V c main_v44)) (V c main_arg4))
    (fun t _ => flushed_eq V c t) fun i => by
    have hN : cfg1.N = 10 := N_1
    have hi0 : (i 0).val < 50000 := (i 0).isLt
    have hi1 : (i 1).val < 16 := (i 1).isLt
    have hlt : (i 0).val / 5000 < cfg1.N := by rw [hN]; omega
    refine ⟨⟨(i 0).val / 5000, hlt⟩, flush1_3 _, ?_⟩
    show i ∈ ((View.whole main_v45).slice (win1_3.rect ⟨(i 0).val / 5000, hlt⟩)).set
    rw [View.set_slice_whole, Rect.mem_set_unit]
    obtain ⟨-, -, -, -, -, -, e0, e1⟩ := idx_facts ⟨(i 0).val / 5000, hlt⟩
    intro a
    match a with
    | ⟨0, _⟩ =>
      show win1_3.index ⟨(i 0).val / 5000, hlt⟩ (0 : Fin 2) * 5000 ≤ (i 0).val ∧ (i 0).val < win1_3.index ⟨(i 0).val / 5000, hlt⟩ (0 : Fin 2) * 5000 + 5000
      rw [e0]; show (i 0).val / 5000 * 5000 ≤ (i 0).val ∧ (i 0).val < (i 0).val / 5000 * 5000 + 5000; omega
    | ⟨1, _⟩ =>
      show win1_3.index ⟨(i 0).val / 5000, hlt⟩ (1 : Fin 2) * 16 ≤ (i 1).val ∧ (i 1).val < win1_3.index ⟨(i 0).val / 5000, hlt⟩ (1 : Fin 2) * 16 + 16
      rw [e1]; omega

end Cert.KernelIdeal.Stage1

end
-- ==== Proof.LibColumn.lean ====
/-
  A column of per-row values used against a matrix.

  A vector of length `a` written as an `[a, 1]` column (a reshape that appends a unit axis) holds, at row `i`, the
  vector's entry `i`; and an `[a, 1]` column broadcast along the second axis to `[a, b]` holds, at `(p, c)`, the
  column's entry of row `p`, whatever the column coordinate `c`. Both are read off the general index lemmas for a
  shape cast (equal row-major positions) and for a broadcast (unit axes read at 0).
-/
import Idealize.ShloMosaic.Lib.Pipeline.Value
import Idealize.ShloMosaic.Lib.ValueIdx

noncomputable section

namespace Cert.LibColumn

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumn

end
-- ==== Proof.SoftmaxKernel.lean ====
/- The third kernel's body read at one index.

   The body adds the bias row to every row of a [5000, 16] block and then takes the log-softmax of each
   row: the row's maximum (folded from -∞, then taken against -∞ once more) is subtracted, the shifted
   row is exponentiated and summed, and the logarithm of that sum is subtracted from the shifted row.
   Read at (p, q), every stage depends only on row p of the block and on the bias row, so the result is
   the log-softmax of that one row of sixteen, at q. -/
import proofs.«123071_j62199716381547_1_alg».proof.Proof.Gen.KernelIdeal.Skeleton
import proofs.«123071_j62199716381547_1_alg».proof.Proof.SoftmaxRow
import proofs.«123071_j62199716381547_1_alg».proof.Proof.LibColumn
import Idealize.ShloMosaic.Lib.ValueIdx
import Idealize.ShloMosaic.Lib.ValueLayout
import Idealize.ShloMosaic.Lib.Pipeline.Value
import Idealize.ShloMosaic.PureOps.Ideal.Laws

noncomputable section

namespace Cert.SoftmaxKernel

open Idealize.ShloMosaic Idealize.ShloMosaic.ValueIdx Cert.KernelIdeal

/-- Over the row index `p` of the reduced shape, the source index with coordinate `k` inserted on the
    dropped second axis is `(p, k)`. -/
theorem lift_row (h : S5000x16.Reduces [1] S5000) (p : Fin 5000) (k : Fin 16) :
    h.lift (ix1 p) k = ix2 p k := by
  funext c
  match c with
  | ⟨0, _⟩ => exact Fin.ext rfl
  | ⟨1, _⟩ => exact Fin.ext rfl

/-- The maximum over the second axis, read at row `p`: the fold of `max` over the row's sixteen entries
    from the accumulator's word. -/
theorem rowMax_read (v : FVec Ideal S5000x16 .f32) (h : S5000x16.Reduces [1] S5000) (hφ : FKind.Formats .f32)
    (hacc : (0xFF800000#32 : BitVec 32) = FKind.maximumf.neutral .f32 hφ) (p : Fin 5000) :
    multiReduction .maximumf [1] S5000 v 0xFF800000#32 h hφ hacc (ix1 p)
      = (Finset.univ : Finset (Fin 16)).fold max (Ideal.ofBits .f32 0xFF800000#32) (fun k => v (ix2 p k)) := by
  refine (Ideal.multiReduction_maximumf_single v _ h hφ hacc (ix1 p)).trans ?_
  exact congrArg (fun f => (Finset.univ : Finset (Fin 16)).fold max (Ideal.ofBits .f32 0xFF800000#32) f)
    (funext fun k => congrArg v (lift_row h p k))

/-- The sum over the second axis, read at row `p`: the sum of the row's sixteen entries. -/
theorem rowSum_read (v : FVec Ideal S5000x16 .f32) (h : S5000x16.Reduces [1] S5000) (hφ : FKind.Formats .f32)
    (hacc : (0x00000000#32 : BitVec 32) = FKind.add.neutral .f32 hφ) (p : Fin 5000) :
    multiReduction .add [1] S5000 v 0x00000000#32 h hφ hacc (ix1 p) = ∑ k : Fin 16, v (ix2 p k) := by
  refine (Ideal.multiReduction_add_single v _ h hφ hacc (ix1 p)).trans ?_
  exact Finset.sum_congr rfl fun k _ => congrArg v (lift_row h p k)

/-- A vector of per-row values, written as a column and spread over the sixteen columns, reads at
    `(p, k)` the value of row `p`. -/
theorem col_read (w : FVec Ideal S5000 .f32) (hc : S5000.ShapeCasts S5000x1) (hb : S5000x1.Broadcasts S5000x16)
    (p : Fin 5000) (k : Fin 16) :
    broadcastTo S5000x16 (shapeCast S5000x1 w hc) hb (ix2 p k) = w (ix1 p) :=
  (Cert.LibColumn.broadcastTo_a1_ab_apply _ hb p k).trans (Cert.LibColumn.shapeCast_a_a1_apply w hc p (0 : Fin 1))

/-- The same with a pointwise logarithm applied to the column before it is spread. -/
theorem logCol_read (w : FVec Ideal S5000 .f32) (hc : S5000.ShapeCasts S5000x1) (hb : S5000x1.Broadcasts S5000x16)
    (p : Fin 5000) (k : Fin 16) :
    broadcastTo S5000x16 (log (shapeCast S5000x1 w hc)) hb (ix2 p k) = Ideal.log (w (ix1 p)) := by
  have e : (log (shapeCast S5000x1 w hc) : FVec Ideal S5000x1 .f32)
      = shapeCast S5000x1 (log w) hc := rfl
  rw [e]
  exact col_read (log w) hc hb p k

/-- The body after the bias add, over any `[5000, 16]` array `v`: at `(p, q)` it is the log-softmax of
    row `p` of `v` at `q`. -/
theorem softmax_of_rows (v : FVec Ideal S5000x16 .f32) (h : S5000x16.Reduces [1] S5000)
    (hc : S5000.ShapeCasts S5000x1) (hb : S5000x1.Broadcasts S5000x16) (hφ : FKind.Formats .f32)
    (hmax : (0xFF800000#32 : BitVec 32) = FKind.maximumf.neutral .f32 hφ)
    (hadd : (0x00000000#32 : BitVec 32) = FKind.add.neutral .f32 hφ) (p : Fin 5000) (q : Fin 16) :
    subf
        (subf v (broadcastTo S5000x16
          (shapeCast S5000x1
            (maximumf (broadcast S5000 (FloatOps.ofBits (F := Ideal) .f32 0xFF800000#32))
              (multiReduction .maximumf [1] S5000 v 0xFF800000#32 h hφ hmax)) hc) hb))
        (broadcastTo S5000x16
          (log (shapeCast S5000x1
            (multiReduction .add [1] S5000
              (exp (subf v (broadcastTo S5000x16
                (shapeCast S5000x1
                  (maximumf (broadcast S5000 (FloatOps.ofBits (F := Ideal) .f32 0xFF800000#32))
                    (multiReduction .maximumf [1] S5000 v 0xFF800000#32 h hφ hmax)) hc) hb)))
              0x00000000#32 h hφ hadd) hc)) hb)
        (ix2 p q)
      = Cert.SoftmaxRow.logSoftmaxRow (fun k => v (ix2 p k)) q := by
  -- the row's maximum, as the vector of per-row values the kernel spreads back over the columns
  have hm : (maximumf (broadcast S5000 (FloatOps.ofBits (F := Ideal) .f32 0xFF800000#32))
        (multiReduction .maximumf [1] S5000 v 0xFF800000#32 h hφ hmax)) (ix1 p)
      = Cert.SoftmaxRow.rowMax (fun k => v (ix2 p k)) := by
    rw [maximumf_apply, broadcast_apply, rowMax_read v h hφ hmax p]
    rfl
  generalize (maximumf (broadcast S5000 (FloatOps.ofBits (F := Ideal) .f32 0xFF800000#32))
        (multiReduction .maximumf [1] S5000 v 0xFF800000#32 h hφ hmax)) = mv at hm ⊢
  -- the shifted row
  have hs : ∀ k : Fin 16, subf v (broadcastTo S5000x16 (shapeCast S5000x1 mv hc) hb) (ix2 p k)
      = v (ix2 p k) - Cert.SoftmaxRow.rowMax (fun k => v (ix2 p k)) := fun k => by
    rw [subf_apply, col_read mv hc hb p k, hm]
  generalize subf v (broadcastTo S5000x16 (shapeCast S5000x1 mv hc) hb) = sv at hs ⊢
  rw [subf_apply, logCol_read _ hc hb p q, rowSum_read _ h hφ hadd p, hs q]
  unfold Cert.SoftmaxRow.logSoftmaxRow
  refine congrArg (fun t => _ - Ideal.log t) (Finset.sum_congr rfl fun k _ => ?_)
  show Ideal.exp (sv (ix2 p k)) = _
  rw [hs k]

/-- The third kernel's payload at `(p, q)`: the log-softmax, at `q`, of row `p` of the block plus the bias row. -/
theorem pay_apply (b : Vec Ideal Cert.KernelIdeal.S1x16 .f32) (a : Vec Ideal Cert.KernelIdeal.S5000x16 .f32) (p : Fin 5000) (q : Fin 16) :
    Cert.KernelIdeal.Gen.k2_pay1 (F := Ideal) b a (ix2 p q)
      = Cert.SoftmaxRow.logSoftmaxRow (fun k => a (ix2 p k) + b (ix2 (0 : Fin 1) k)) q := by
  unfold Cert.KernelIdeal.Gen.k2_pay1
  refine (softmax_of_rows _ _ _ _ _ _ _ p q).trans ?_
  refine congrArg (fun z => Cert.SoftmaxRow.logSoftmaxRow z q) (funext fun k => ?_)
  rw [addf_apply, shapeCast_self, shapeCast_self, shapeCast_self, broadcastTo_1b_ab_apply]

end Cert.SoftmaxKernel

end
-- ==== Proof.Region2.lean ====
/-
  The third launch: bias and a log-softmax along each row of 16, ten row blocks of 5000.

  At grid point t the body sees rows 5000·t … of the aggregated scores and the whole [1, 16] bias row, adds the bias
  along each row and takes the row's log-softmax. A row's log-softmax depends on that row only, so row r of what point t
  writes back is the log-softmax of row 5000·t + r of the biased array: the blocks are the restrictions of one
  whole-array function, and they tile the result.
-/
import proofs.«123071_j62199716381547_1_alg».proof.Proof.Gen.KernelIdeal.Frame
import proofs.«123071_j62199716381547_1_alg».proof.Proof.Spec
import proofs.«123071_j62199716381547_1_alg».proof.Proof.SoftmaxKernel
import Idealize.ShloMosaic.Lib.Pipeline.Value
import Idealize.ShloMosaic.Lib.Tactic

noncomputable section

open scoped BigOperators
open Idealize.ShloMosaic Idealize.ShloMosaic.TcCoe Idealize.SL.Sem Idealize.ShloMosaic.ValueIdx
open Idealize.ShloMosaic.Pipeline (Dat)

namespace Cert.KernelIdeal.Stage2

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: the scores' and the result's row block is the grid point, every other block
    coordinate is 0. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The scores' block at point t is rows 5000·t … of the array. -/
theorem rows_apply (c : Dev nD) (t : Fin cfg2.N) (y : S5000x16.Idx) (i : S50000x16.Idx)
    (h0 : (i 0).val = t.val * 5000 + (y 0).val) (h1 : (i 1).val = (y 1).val) :
    (iblk2 V c 0 t : Vec Ideal S5000x16 .f32) y = (V c main_v58 : S50000x16.Idx → Elt Ideal .f32) i := by
  obtain ⟨e0, e1, -⟩ := idx_facts t
  unfold iblk2
  rw [View.read_apply]
  show V c main_v58 (((cfg2.win 0).blk t).view.emb y) = V c main_v58 i
  refine congrArg (V c main_v58) (funext fun a => Fin.ext ?_)
  match a with
  | ⟨0, _⟩ => show win2_0.index t (0 : Fin 2) * 5000 + 1 * (y 0).val = (i 0).val; rw [e0, h0]; omega
  | ⟨1, _⟩ => show win2_0.index t (1 : Fin 2) * 16 + 1 * (y 1).val = (i 1).val; rw [e1, h1]; omega

/-- The bias row's one block is the whole [1, 16] array. -/
theorem bias_apply (c : Dev nD) (t : Fin cfg2.N) (y : S1x16.Idx) :
    (iblk2 V c 1 t : Vec Ideal S1x16 .f32) y = (V c main_v59 : S1x16.Idx → Elt Ideal .f32) y := by
  obtain ⟨-, -, e0, e1, -⟩ := idx_facts t
  unfold iblk2
  rw [View.read_apply]
  show V c main_v59 (((cfg2.win 1).blk t).view.emb y) = V c main_v59 y
  refine congrArg (V c main_v59) (funext fun a => Fin.ext ?_)
  match a with
  | ⟨0, _⟩ => show win2_1.index t (0 : Fin 2) * 1 + 1 * (y 0).val = (y 0).val; rw [e0]; omega
  | ⟨1, _⟩ => show win2_1.index t (1 : Fin 2) * 16 + 1 * (y 1).val = (y 1).val; rw [e1]; omega

/-- A row block's biased log-softmax is the corresponding rows of the whole one: over any block a whose entries are
    rows 5000·t … of A and any b equal to B. -/
theorem point_eq (b : Vec Ideal S1x16 .f32) (a : Vec Ideal S5000x16 .f32)
    (A : FVec Ideal S50000x16 .f32) (B : FVec Ideal S1x16 .f32) (t : ℕ)
    (ha : ∀ (y : S5000x16.Idx) (i : S50000x16.Idx), (i 0).val = t * 5000 + (y 0).val → (i 1).val = (y 1).val → a y = A i)
    (hb : ∀ y : S1x16.Idx, b y = B y)
    (j : S5000x16.Idx) (i : S50000x16.Idx) (h0 : (i 0).val = t * 5000 + (j 0).val) (h1 : (i 1).val = (j 1).val) :
    k2_pay1 (F := Ideal) b a j = Cert.Spec.biasLogSoftmax (n := 50000) A B i := by
  obtain ⟨p, q, rfl⟩ : ∃ (p : Fin 5000) (q : Fin 16), j = ix2 p q := ⟨j 0, j 1, eq_ix2 j⟩
  obtain ⟨r, s, rfl⟩ : ∃ (r : Fin 50000) (s : Fin 16), i = ix2 r s := ⟨i 0, i 1, eq_ix2 i⟩
  have hs : s = q := Fin.ext h1
  subst hs
  refine (Cert.SoftmaxKernel.pay_apply b a p s).trans ?_
  refine (congrArg (fun z => Cert.SoftmaxRow.logSoftmaxRow z s) (funext fun k => ?_)).trans (Cert.Spec.biasLogSoftmax_apply A B r s).symm
  rw [ha (ix2 p k) (ix2 r k) h0 rfl, hb]

/-- What point t writes back is block t of the whole biased log-softmax of the arrays as the region finds them. -/
theorem flushed_eq (c : Dev nD) (t : Fin cfg2.N) :
    (dat2 V c).flushed 2 t = ((cfg2.win 2).blk t).view.read (Elt Ideal)
      (Cert.Spec.biasLogSoftmax (n := 50000) (V c main_v58) (V c main_v59)) := by
  show (cfg2.win 2).cut (grid2.coords t) ((dat2 V c).after 2 t) = _
  rw [after2_2]
  unfold out2_2
  rw [View.canon_unit_zero hz]
  simp only [View.ld_unit_zero (S := S5000x16) hz, View.ld_unit_zero (S := S1x16) hz]
  obtain ⟨-, -, -, -, e0, e1⟩ := idx_facts t
  funext j
  show k2_pay1 (F := Ideal) (iblk2 V c 1 t) (iblk2 V c 0 t) j
    = Cert.Spec.biasLogSoftmax (n := 50000) (V c main_v58) (V c main_v59) (((cfg2.win 2).blk t).view.emb j)
  refine point_eq (iblk2 V c 1 t) (iblk2 V c 0 t) (V c main_v58) (V c main_v59) t.val
    (fun y i h0 h1 => rows_apply V c t y i h0 h1) (fun y => bias_apply V c t y) j _ ?_ ?_
  · show win2_2.index t (0 : Fin 2) * 5000 + 1 * (j 0).val = _; rw [e0]; omega
  · show win2_2.index t (1 : Fin 2) * 16 + 1 * (j 1).val = _; rw [e1]; omega

/-- The result array after the launch is the whole biased log-softmax. -/
theorem final (c : Dev nD) :
    (dat2 V c).arrAt 2 cfg2.N = Cert.Spec.biasLogSoftmax (n := 50000) (V c main_v58) (V c main_v59) :=
  (dat2 V c).arrAt_eq_of_cover 2 (Cert.Spec.biasLogSoftmax (n := 50000) (V c main_v58) (V c main_v59))
    (fun t _ => flushed_eq V c t) fun i => by
    have hN : cfg2.N = 10 := N_2
    have hi0 : (i 0).val < 50000 := (i 0).isLt
    have hi1 : (i 1).val < 16 := (i 1).isLt
    have hlt : (i 0).val / 5000 < cfg2.N := by rw [hN]; omega
    refine ⟨⟨(i 0).val / 5000, hlt⟩, flush2_2 _, ?_⟩
    show i ∈ ((View.whole main_v60).slice (win2_2.rect ⟨(i 0).val / 5000, hlt⟩)).set
    rw [View.set_slice_whole, Rect.mem_set_unit]
    obtain ⟨-, -, -, -, e0, e1⟩ := idx_facts ⟨(i 0).val / 5000, hlt⟩
    intro a
    match a with
    | ⟨0, _⟩ =>
      show win2_2.index ⟨(i 0).val / 5000, hlt⟩ (0 : Fin 2) * 5000 ≤ (i 0).val ∧ (i 0).val < win2_2.index ⟨(i 0).val / 5000, hlt⟩ (0 : Fin 2) * 5000 + 5000
      rw [e0]; show (i 0).val / 5000 * 5000 ≤ (i 0).val ∧ (i 0).val < (i 0).val / 5000 * 5000 + 5000; omega
    | ⟨1, _⟩ =>
      show win2_2.index ⟨(i 0).val / 5000, hlt⟩ (1 : Fin 2) * 16 ≤ (i 1).val ∧ (i 1).val < win2_2.index ⟨(i 0).val / 5000, hlt⟩ (1 : Fin 2) * 16 + 16
      rw [e1]; omega

end Cert.KernelIdeal.Stage2

end
-- ==== Proof.DenseReference.lean ====
/-
  The reference's two matrix products, with the bias row and the cut at zero between them, read at an index.

  The reference's first product is, at row `p` and column `q`, the plain sum `Σ k, x0 (p, k) · x2 (k, q)`. Its second
  product multiplies, by the weights `x4`, an array that is the maximum with zero of an earlier array `A` plus the bias
  vector `x3` (copied to one row, the row copied to every row): at `(p, q)` it is
  `Σ k, max (A (p, k) + x3 k) 0 · x4 (k, q)`. The last bias add is, at `(p, k)`, an earlier array plus `x5 k`.
  The earlier arrays (results of scatters) are not opened here. Each statement follows from the per-operation reading
  lemmas of the reference, once the index functions those lemmas compose are identified with plain coordinates.
-/
import proofs.«123071_j62199716381547_1_alg».proof.Proof.RefRead

noncomputable section

open scoped BigOperators

namespace Cert.DenseReference

open Idealize.ShloMosaic Idealize.ShloMosaic.ValueIdx
open Cert.ReferenceIdeal

/-! ## The first product -/

/-- The reference's first product at `(p, q)`. -/
theorem first_apply (x0 : (⟨Cert.ReferenceIdeal.S50000x128, .f32⟩ : BufTy).Contents (Elt Ideal)) (x2 : (⟨Cert.ReferenceIdeal.S128x128, .f32⟩ : BufTy).Contents (Elt Ideal))
    (p : Fin 50000) (q : Fin 128) :
    Cert.ReferenceIdeal.ReadP.val_main_v30 (F := Ideal) x0 x2 (ix2 p q) = ∑ k : Fin 128, x0 (ix2 p k) * x2 (ix2 k q) := by
  rw [ReadP.val_main_v30_apply]
  refine Finset.sum_congr rfl fun k _ => ?_
  have el : ReadP.lidx_main_v30 (ix2 p q) k = ix2 p k :=
    funext fun a => Fin.ext (by match a with | ⟨0, _⟩ => rfl | ⟨1, _⟩ => rfl)
  have er : ReadP.ridx_main_v30 (ix2 p q) k = ix2 k q :=
    funext fun a => Fin.ext (by match a with | ⟨0, _⟩ => rfl | ⟨1, _⟩ => rfl)
  rw [el, er]

/-! ## The second product, over the biased and cut array -/

/-- The reference's second product at `(p, q)`: the earlier array plus the bias, cut below at zero, times the weights. -/
theorem second_apply (x0 : (⟨Cert.ReferenceIdeal.S50000x128, .f32⟩ : BufTy).Contents (Elt Ideal)) (x1 : (⟨Cert.ReferenceIdeal.S2x800000, .i32⟩ : BufTy).Contents (Elt Ideal))
    (x2 : (⟨Cert.ReferenceIdeal.S128x128, .f32⟩ : BufTy).Contents (Elt Ideal)) (x3 : (⟨Cert.ReferenceIdeal.S128, .f32⟩ : BufTy).Contents (Elt Ideal))
    (x4 : (⟨Cert.ReferenceIdeal.S128x16, .f32⟩ : BufTy).Contents (Elt Ideal)) (p : Fin 50000) (q : Fin 16) :
    Cert.ReferenceIdeal.ReadP.val_main_v48 (F := Ideal) x0 x1 x2 x3 x4 (ix2 p q)
      = ∑ k : Fin 128, max (Cert.ReferenceIdeal.ReadP.val_main_v43 (F := Ideal) x0 x1 x2 (ix2 p k) + x3 (ix1 k)) (Ideal.ofBits .f32 0x00000000#32) * x4 (ix2 k q) := by
  rw [ReadP.val_main_v48_apply]
  refine Finset.sum_congr rfl fun k _ => ?_
  have el : ReadP.lidx_main_v48 (ix2 p q) k = ix2 p k :=
    funext fun a => Fin.ext (by match a with | ⟨0, _⟩ => rfl | ⟨1, _⟩ => rfl)
  have er : ReadP.ridx_main_v48 (ix2 p q) k = ix2 k q :=
    funext fun a => Fin.ext (by match a with | ⟨0, _⟩ => rfl | ⟨1, _⟩ => rfl)
  have eb : ReadP.idx_main_v44 (ReadP.idx_main_v45 (ix2 p k)) = ix1 k :=
    funext fun a => Fin.ext (by match a with | ⟨0, _⟩ => rfl)
  rw [el, er, ReadP.val_main_v47_apply, ReadP.val_main_v46_apply, ReadP.val_main_call1_v0_apply,
    ReadP.val_main_call1_cst_apply, ReadP.val_main_v45_apply, ReadP.val_main_v44_apply, eb]
  generalize ReadP.val_main_v43 (F := Ideal) x0 x1 x2 = y
  rfl

/-! ## The last bias add -/

/-- The reference's last bias add at `(p, k)`: the earlier array plus the bias vector's entry `k`. -/
theorem third_bias_apply (x0 : (⟨Cert.ReferenceIdeal.S50000x128, .f32⟩ : BufTy).Contents (Elt Ideal)) (x1 : (⟨Cert.ReferenceIdeal.S2x800000, .i32⟩ : BufTy).Contents (Elt Ideal))
    (x2 : (⟨Cert.ReferenceIdeal.S128x128, .f32⟩ : BufTy).Contents (Elt Ideal)) (x3 : (⟨Cert.ReferenceIdeal.S128, .f32⟩ : BufTy).Contents (Elt Ideal))
    (x4 : (⟨Cert.ReferenceIdeal.S128x16, .f32⟩ : BufTy).Contents (Elt Ideal)) (x5 : (⟨Cert.ReferenceIdeal.S16, .f32⟩ : BufTy).Contents (Elt Ideal))
    (p : Fin 50000) (k : Fin 16) :
    Cert.ReferenceIdeal.ReadP.val_main_v64 (F := Ideal) x0 x1 x2 x3 x4 x5 (ix2 p k)
      = Cert.ReferenceIdeal.ReadP.val_main_v61 (F := Ideal) x0 x1 x2 x3 x4 (ix2 p k) + x5 (ix1 k) := by
  have eb : ReadP.idx_main_v62 (ReadP.idx_main_v63 (ix2 p k)) = ix1 k :=
    funext fun a => Fin.ext (by match a with | ⟨0, _⟩ => rfl)
  rw [ReadP.val_main_v64_apply, ReadP.val_main_v63_apply, ReadP.val_main_v62_apply, eb]
  generalize ReadP.val_main_v61 (F := Ideal) x0 x1 x2 x3 x4 = y
  rfl

end Cert.DenseReference

end
-- ==== Proof.SoftmaxReference.lean ====
/- The reference's log_softmax read at one index.

   The function takes the maximum of each row of sixteen (a reduce from -∞, then a maximum against a
   splat of -∞), subtracts it from the row, exponentiates, sums each row from 0, takes the logarithm of
   the sums and subtracts it from the shifted row. Read at (p, q), every stage depends only on row p of
   the argument, so the result is the log-softmax of that one row, at q. -/
import proofs.«123071_j62199716381547_1_alg».proof.Proof.RefRead
import proofs.«123071_j62199716381547_1_alg».proof.Proof.SoftmaxRow
import Idealize.ShloMosaic.Lib.ValueIdx
import Idealize.ShloMosaic.Lib.Pipeline.Value
import Idealize.ShloMosaic.PureOps.Ideal.Laws

noncomputable section

namespace Cert.SoftmaxReference

open Cert.ReferenceIdeal Cert.ReferenceIdeal.Gen Idealize.ShloMosaic Idealize.ShloMosaic.ValueIdx Idealize.ShloMosaic.TcCoe
  Idealize.SL.Sem Idealize.ShloMosaic.StableHlo Cert.ReferenceIdeal.ReadP

/-- Over the row index `p` of the reduced shape, the source index with coordinate `k` inserted on the
    dropped second axis is `(p, k)`. -/
theorem lift_row (h : S50000x16.Reduces [1] S50000) (p : Fin 50000) (k : Fin 16) :
    h.lift (ix1 p) k = ix2 p k := by
  funext c
  match c with
  | ⟨0, _⟩ => exact Fin.ext rfl
  | ⟨1, _⟩ => exact Fin.ext rfl

/-! The index functions of the layout stages, at the indices met here. -/

theorem idx_v4_eq (p : Fin 50000) (k : Fin 16) : idx_main_call2_v4 (ix2 p k) = ix2 p (0 : Fin 1) := by
  funext c
  match c with
  | ⟨0, _⟩ => exact Fin.ext rfl
  | ⟨1, _⟩ => exact Fin.ext rfl

theorem idx_v3_eq (p : Fin 50000) : idx_main_call2_v3 (ix2 p (0 : Fin 1)) = ix1 p := by
  funext c
  match c with
  | ⟨0, _⟩ => exact Fin.ext rfl

theorem idx_v7_eq (p : Fin 50000) (k : Fin 16) : idx_main_call2_v7 (ix1 p) k = ix2 p k := by
  funext c
  match c with
  | ⟨0, _⟩ => exact Fin.ext rfl
  | ⟨1, _⟩ => exact Fin.ext rfl

theorem idx_v8_eq (p : Fin 50000) : idx_main_call2_v8 (ix2 p (0 : Fin 1)) = ix1 p := by
  funext c
  match c with
  | ⟨0, _⟩ => exact Fin.ext rfl

theorem idx_v10_eq (p : Fin 50000) (q : Fin 16) : idx_main_call2_v10 (ix2 p q) = ix2 p (0 : Fin 1) := by
  funext c
  match c with
  | ⟨0, _⟩ => exact Fin.ext rfl
  | ⟨1, _⟩ => exact Fin.ext rfl

/-- The host's reduce with a maximum body over the second axis, read at row `p`: the fold of `max` over
    the row's sixteen entries from the initial value's word. -/
theorem hostMax_read (y : FVec Ideal S50000x16 .f32) (p : Fin 50000) :
    Host.reduce (FloatOps.maximumf (F := Ideal) (φ := .f32)) y (constant (F := Ideal) S_ .f32 0xFF800000#32)
        reducesTo_S50000x16_S50000_d1 h_S_ (ix1 p)
      = (Finset.univ : Finset (Fin 16)).fold max (Ideal.ofBits .f32 0xFF800000#32) (fun k => y (ix2 p k)) := by
  have h : S50000x16.Reduces [1] S50000 := by decide
  refine (Host.reduce_eq_fold_single (FloatOps.maximumf (F := Ideal) (φ := .f32)) y _ reducesTo_S50000x16_S50000_d1 h h_S_
    (ix1 p)).trans ?_
  exact congrArg (fun f => (Finset.univ : Finset (Fin 16)).fold max (Ideal.ofBits .f32 0xFF800000#32) f)
    (funext fun k => congrArg y (lift_row h p k))

/-- The reference's log_softmax read at `(p, q)`: the log-softmax, at `q`, of row `p` of its argument. -/
theorem result_apply (x0 : (⟨Cert.ReferenceIdeal.S50000x128, .f32⟩ : BufTy).Contents (Elt Ideal)) (x1 : (⟨Cert.ReferenceIdeal.S2x800000, .i32⟩ : BufTy).Contents (Elt Ideal)) (x2 : (⟨Cert.ReferenceIdeal.S128x128, .f32⟩ : BufTy).Contents (Elt Ideal)) (x3 : (⟨Cert.ReferenceIdeal.S128, .f32⟩ : BufTy).Contents (Elt Ideal)) (x4 : (⟨Cert.ReferenceIdeal.S128x16, .f32⟩ : BufTy).Contents (Elt Ideal)) (x5 : (⟨Cert.ReferenceIdeal.S16, .f32⟩ : BufTy).Contents (Elt Ideal)) (p : Fin 50000) (q : Fin 16) :
    Cert.ReferenceIdeal.ReadP.val_main_v65 (F := Ideal) x0 x1 x2 x3 x4 x5 (ix2 p q)
      = Cert.SoftmaxRow.logSoftmaxRow (fun k => Cert.ReferenceIdeal.ReadP.val_main_v64 (F := Ideal) x0 x1 x2 x3 x4 x5 (ix2 p k)) q := by
  -- the row's maximum
  have h0 : val_main_call2_v0 (F := Ideal) x0 x1 x2 x3 x4 x5 (ix1 p)
      = (Finset.univ : Finset (Fin 16)).fold max (Ideal.ofBits .f32 0xFF800000#32)
          (fun k => val_main_v64 (F := Ideal) x0 x1 x2 x3 x4 x5 (ix2 p k)) :=
    hostMax_read (val_main_v64 (F := Ideal) x0 x1 x2 x3 x4 x5) p
  have hm : val_main_call2_v2 (F := Ideal) x0 x1 x2 x3 x4 x5 (ix1 p)
      = Cert.SoftmaxRow.rowMax (fun k => val_main_v64 (F := Ideal) x0 x1 x2 x3 x4 x5 (ix2 p k)) := by
    rw [val_main_call2_v2_apply, val_main_call2_v1_apply, val_main_call2_cst_0_apply, h0]
    rfl
  -- the shifted row
  have hs : ∀ k : Fin 16, val_main_call2_v5 (F := Ideal) x0 x1 x2 x3 x4 x5 (ix2 p k)
      = val_main_v64 (F := Ideal) x0 x1 x2 x3 x4 x5 (ix2 p k)
        - Cert.SoftmaxRow.rowMax (fun k => val_main_v64 (F := Ideal) x0 x1 x2 x3 x4 x5 (ix2 p k)) := fun k => by
    rw [val_main_call2_v5_apply, val_main_call2_v4_apply, idx_v4_eq, val_main_call2_v3_apply, idx_v3_eq, hm]
    rfl
  -- the sum of the exponentials of the shifted row
  have h7 : val_main_call2_v7 (F := Ideal) x0 x1 x2 x3 x4 x5 (ix1 p)
      = ∑ k : Fin 16, Ideal.exp (val_main_v64 (F := Ideal) x0 x1 x2 x3 x4 x5 (ix2 p k)
        - Cert.SoftmaxRow.rowMax (fun k => val_main_v64 (F := Ideal) x0 x1 x2 x3 x4 x5 (ix2 p k))) := by
    rw [val_main_call2_v7_apply, val_main_call2_cst_1_apply, Ideal.ofBits_def, Ideal.ofBits_zero_f32, zero_add]
    refine Finset.sum_congr rfl fun k _ => ?_
    rw [idx_v7_eq, val_main_call2_v6_apply, Ideal.hostUnary_exp_def, hs k]
  rw [val_main_v65_apply, val_main_call2_v10_apply, idx_v10_eq, val_main_call2_v9_apply, Ideal.hostUnary_log_def,
    val_main_call2_v8_apply, idx_v8_eq, h7, hs q]
  rfl

end Cert.SoftmaxReference

end
-- ==== Proof.Layers.lean ====
/-
  The three layers, boundary by boundary.

  Between the launches the two programs apply the SAME host operations — gather the rows of the transformed features at
  each edge's source, scale by the edge's weight, scatter-add at the edge's destination — to values that are equal: so at
  every boundary the kernel's buffers hold the reference's stages of the six arguments.
    * after the first launch the product x·W1 (the launch's whole-array value, the reference's dot_general read at an index);
    * when the second launch is entered the aggregated features, and the first bias as a [1, 128] row;
    * after it the product of the rectified biased features with W2;
    * when the third launch is entered the aggregated scores, and the second bias as a [1, 16] row;
    * after it the log-softmax of the biased scores: the reference's result.
-/
import proofs.«123071_j62199716381547_1_alg».proof.Proof.Gen.KernelIdeal.Frame
import proofs.«123071_j62199716381547_1_alg».proof.Proof.RefRead
import proofs.«123071_j62199716381547_1_alg».proof.Proof.EdgeData
import proofs.«123071_j62199716381547_1_alg».proof.Proof.Region0
import proofs.«123071_j62199716381547_1_alg».proof.Proof.Region1
import proofs.«123071_j62199716381547_1_alg».proof.Proof.Region2
import proofs.«123071_j62199716381547_1_alg».proof.Proof.DenseReference
import proofs.«123071_j62199716381547_1_alg».proof.Proof.SoftmaxReference
import proofs.«123071_j62199716381547_1_alg».proof.Proof.Spec
import Idealize.ShloMosaic.Lib.StableHlo.Run
import Idealize.ShloMosaic.Lib.ValueLayout

set_option maxRecDepth 16384

noncomputable section

open scoped BigOperators
open Idealize.ShloMosaic Idealize.ShloMosaic.TcCoe Idealize.SL.Sem Idealize.ShloMosaic.StableHlo Idealize.ShloMosaic.ValueIdx

namespace Cert.KernelIdeal.Boundary

open Cert.KernelIdeal Cert.KernelIdeal.Gen

variable (m : (ℓ : Loc nD τ sig) → Buf (Elt Ideal) ℓ) (ρ : Dev nD → PrngReg) (c : Dev nD)

/-! ## After the first launch -/

/-- The first launch leaves the product of the features with the first weights: the reference's first dot_general. -/
theorem first_product : W4 m ρ c (Proc.devRef .tc main_v30) = Cert.ReferenceIdeal.ReadP.val_main_v30 (F := Ideal) (a0 m c) (a2 m c) := by
  refine (W4_arr m ρ c 2).trans ?_
  rw [Cert.KernelIdeal.Stage0.final (V3 m ρ) c,
    show V3 m ρ c main_arg0 = a0 m c from entry_arg0 m ρ c, show V3 m ρ c main_arg2 = a2 m c from entry_arg2 m ρ c]
  funext i
  obtain ⟨r, s, rfl⟩ : ∃ (r : Fin 50000) (s : Fin 128), i = ix2 r s := ⟨i 0, i 1, eq_ix2 i⟩
  exact (Cert.Spec.dense_apply _ _ r s).trans (Cert.DenseReference.first_apply (a0 m c) (a2 m c) r s).symm

theorem after_first_rows : W4 m ρ c (Proc.devRef .tc main_v3) = Cert.ReferenceIdeal.ReadP.val_main_v3 (F := Ideal) (a1 m c) :=
  (W4_of_ne m ρ c main_v3 (by decide)).trans (entry_rows m ρ c)
theorem after_first_cols : W4 m ρ c (Proc.devRef .tc main_v6) = Cert.ReferenceIdeal.ReadP.val_main_v6 (F := Ideal) (a1 m c) :=
  (W4_of_ne m ρ c main_v6 (by decide)).trans (entry_cols m ρ c)
theorem after_first_weight : W4 m ρ c (Proc.devRef .tc main_v29) = Cert.ReferenceIdeal.ReadP.val_main_v29 (F := Ideal) (a1 m c) :=
  (W4_of_ne m ρ c main_v29 (by decide)).trans (entry_weight m ρ c)
theorem after_first_arg3 : W4 m ρ c (Proc.devRef .tc main_arg3) = m ((c : Thread nD τ).loc main_arg3) :=
  (W4_of_ne m ρ c main_arg3 (by decide)).trans (entry_arg3 m ρ c)
theorem after_first_arg4 : W4 m ρ c (Proc.devRef .tc main_arg4) = m ((c : Thread nD τ).loc main_arg4) :=
  (W4_of_ne m ρ c main_arg4 (by decide)).trans (entry_arg4 m ρ c)
theorem after_first_arg5 : W4 m ρ c (Proc.devRef .tc main_arg5) = m ((c : Thread nD τ).loc main_arg5) :=
  (W4_of_ne m ρ c main_arg5 (by decide)).trans (entry_arg5 m ρ c)

/-! ## When the second launch is entered -/

/-- The features aggregated along the edges: the same host operations on equal values. -/
theorem second_entry_features : W5 m ρ c (Proc.devRef .tc main_v43) = Cert.ReferenceIdeal.ReadP.val_main_v43 (F := Ideal) (a0 m c) (a1 m c) (a2 m c) := by
  show StableHlo.after hostOps1 (W4 m ρ c) (Proc.devRef .tc main_v43) = _
  after_results_simp
  rw [first_product, after_first_rows, after_first_cols, after_first_weight]
  unfold Cert.ReferenceIdeal.ReadP.val_main_v43 Cert.ReferenceIdeal.ReadP.val_main_v41 Cert.ReferenceIdeal.ReadP.val_main_v42 Cert.ReferenceIdeal.ReadP.val_main_v40 Cert.ReferenceIdeal.ReadP.val_main_v37 Cert.ReferenceIdeal.ReadP.val_main_v39 Cert.ReferenceIdeal.ReadP.val_main_v38 Cert.ReferenceIdeal.ReadP.val_main_v36 Cert.ReferenceIdeal.ReadP.val_main_v35 Cert.ReferenceIdeal.ReadP.val_main_v32 Cert.ReferenceIdeal.ReadP.val_main_v34 Cert.ReferenceIdeal.ReadP.val_main_v31 Cert.ReferenceIdeal.ReadP.val_main_v33 Cert.ReferenceIdeal.ReadP.val_main_c_6 Cert.ReferenceIdeal.ReadP.val_main_c_7 Cert.ReferenceIdeal.ReadP.val_main_cst_8
  rfl

/-- The first bias, reshaped to a [1, 128] row, read at (0, k). -/
theorem second_entry_bias (k : Fin 128) :
    (W5 m ρ c (Proc.devRef .tc main_v44) : S1x128.Idx → Elt Ideal .f32) (ix2 (0 : Fin 1) k) = a3 m c (ix1 k) := by
  have h : W5 m ρ c (Proc.devRef .tc main_v44) = shapeCast S1x128 (a3 m c) shapeCasts_S128_S1x128 := by
    show StableHlo.after hostOps1 (W4 m ρ c) (Proc.devRef .tc main_v44) = _
    after_results_simp
    rw [after_first_arg3]
    rfl
  rw [h]
  exact shapeCast_a_1a_apply (a3 m c) shapeCasts_S128_S1x128 0 k

theorem second_entry_weights : W5 m ρ c (Proc.devRef .tc main_arg4) = m ((c : Thread nD τ).loc main_arg4) := by
  show StableHlo.after hostOps1 (W4 m ρ c) (Proc.devRef .tc main_arg4) = _
  after_results_simp
  exact after_first_arg4 m ρ c
theorem second_entry_rows : W5 m ρ c (Proc.devRef .tc main_v3) = Cert.ReferenceIdeal.ReadP.val_main_v3 (F := Ideal) (a1 m c) := by
  show StableHlo.after hostOps1 (W4 m ρ c) (Proc.devRef .tc main_v3) = _
  after_results_simp
  exact after_first_rows m ρ c
theorem second_entry_cols : W5 m ρ c (Proc.devRef .tc main_v6) = Cert.ReferenceIdeal.ReadP.val_main_v6 (F := Ideal) (a1 m c) := by
  show StableHlo.after hostOps1 (W4 m ρ c) (Proc.devRef .tc main_v6) = _
  after_results_simp
  exact after_first_cols m ρ c
theorem second_entry_weight : W5 m ρ c (Proc.devRef .tc main_v29) = Cert.ReferenceIdeal.ReadP.val_main_v29 (F := Ideal) (a1 m c) := by
  show StableHlo.after hostOps1 (W4 m ρ c) (Proc.devRef .tc main_v29) = _
  after_results_simp
  exact after_first_weight m ρ c
theorem second_entry_arg5 : W5 m ρ c (Proc.devRef .tc main_arg5) = m ((c : Thread nD τ).loc main_arg5) := by
  show StableHlo.after hostOps1 (W4 m ρ c) (Proc.devRef .tc main_arg5) = _
  after_results_simp
  exact after_first_arg5 m ρ c

/-! ## After the second launch -/

/-- The second launch leaves the product of the rectified biased features with the second weights: the reference's
    bias add, relu and second dot_general. -/
theorem second_product : W6 m ρ c (Proc.devRef .tc main_v45) = Cert.ReferenceIdeal.ReadP.val_main_v48 (F := Ideal) (a0 m c) (a1 m c) (a2 m c) (a3 m c) (a4 m c) := by
  refine (W6_arr m ρ c 3).trans ?_
  rw [Cert.KernelIdeal.Stage1.final (V5 m ρ) c,
    show V5 m ρ c main_v43 = Cert.ReferenceIdeal.ReadP.val_main_v43 (F := Ideal) (a0 m c) (a1 m c) (a2 m c) from second_entry_features m ρ c,
    show V5 m ρ c main_arg4 = a4 m c from second_entry_weights m ρ c]
  funext i
  obtain ⟨r, s, rfl⟩ : ∃ (r : Fin 50000) (s : Fin 16), i = ix2 r s := ⟨i 0, i 1, eq_ix2 i⟩
  refine (Cert.Spec.dense_apply _ _ r s).trans ?_
  refine (Finset.sum_congr rfl fun k _ => ?_).trans (Cert.DenseReference.second_apply (a0 m c) (a1 m c) (a2 m c) (a3 m c) (a4 m c) r s).symm
  rw [Cert.Spec.biasRelu_apply]
  exact congrArg (fun z => max (Cert.ReferenceIdeal.ReadP.val_main_v43 (F := Ideal) (a0 m c) (a1 m c) (a2 m c) (ix2 r k) + z) (Ideal.ofBits .f32 0x00000000#32) * a4 m c (ix2 k s))
    (second_entry_bias m ρ c k)

theorem after_second_rows : W6 m ρ c (Proc.devRef .tc main_v3) = Cert.ReferenceIdeal.ReadP.val_main_v3 (F := Ideal) (a1 m c) :=
  (W6_of_ne m ρ c main_v3 (by decide)).trans (second_entry_rows m ρ c)
theorem after_second_cols : W6 m ρ c (Proc.devRef .tc main_v6) = Cert.ReferenceIdeal.ReadP.val_main_v6 (F := Ideal) (a1 m c) :=
  (W6_of_ne m ρ c main_v6 (by decide)).trans (second_entry_cols m ρ c)
theorem after_second_weight : W6 m ρ c (Proc.devRef .tc main_v29) = Cert.ReferenceIdeal.ReadP.val_main_v29 (F := Ideal) (a1 m c) :=
  (W6_of_ne m ρ c main_v29 (by decide)).trans (second_entry_weight m ρ c)
theorem after_second_arg5 : W6 m ρ c (Proc.devRef .tc main_arg5) = m ((c : Thread nD τ).loc main_arg5) :=
  (W6_of_ne m ρ c main_arg5 (by decide)).trans (second_entry_arg5 m ρ c)

/-! ## When the third launch is entered -/

/-- The scores aggregated along the edges: the same host operations on equal values. -/
theorem third_entry_scores : W7 m ρ c (Proc.devRef .tc main_v58) = Cert.ReferenceIdeal.ReadP.val_main_v61 (F := Ideal) (a0 m c) (a1 m c) (a2 m c) (a3 m c) (a4 m c) := by
  show StableHlo.after hostOps2 (W6 m ρ c) (Proc.devRef .tc main_v58) = _
  after_results_simp
  rw [second_product, after_second_rows, after_second_cols, after_second_weight]
  unfold Cert.ReferenceIdeal.ReadP.val_main_v61 Cert.ReferenceIdeal.ReadP.val_main_v59 Cert.ReferenceIdeal.ReadP.val_main_v60 Cert.ReferenceIdeal.ReadP.val_main_v58 Cert.ReferenceIdeal.ReadP.val_main_v55 Cert.ReferenceIdeal.ReadP.val_main_v57 Cert.ReferenceIdeal.ReadP.val_main_v56 Cert.ReferenceIdeal.ReadP.val_main_v54 Cert.ReferenceIdeal.ReadP.val_main_v53 Cert.ReferenceIdeal.ReadP.val_main_v50 Cert.ReferenceIdeal.ReadP.val_main_v52 Cert.ReferenceIdeal.ReadP.val_main_v49 Cert.ReferenceIdeal.ReadP.val_main_v51 Cert.ReferenceIdeal.ReadP.val_main_c_9 Cert.ReferenceIdeal.ReadP.val_main_c_10 Cert.ReferenceIdeal.ReadP.val_main_cst_11
  rfl

/-- The second bias, reshaped to a [1, 16] row, read at (0, k). -/
theorem third_entry_bias (k : Fin 16) :
    (W7 m ρ c (Proc.devRef .tc main_v59) : S1x16.Idx → Elt Ideal .f32) (ix2 (0 : Fin 1) k) = a5 m c (ix1 k) := by
  have h : W7 m ρ c (Proc.devRef .tc main_v59) = shapeCast S1x16 (a5 m c) shapeCasts_S16_S1x16 := by
    show StableHlo.after hostOps2 (W6 m ρ c) (Proc.devRef .tc main_v59) = _
    after_results_simp
    rw [after_second_arg5]
    rfl
  rw [h]
  exact shapeCast_a_1a_apply (a5 m c) shapeCasts_S16_S1x16 0 k

/-! ## The result -/

/-- The third launch leaves the log-softmax of the biased scores: the reference's result stage of the six arguments. -/
theorem result : W8 m ρ c (Proc.devRef .tc main_v60) = Cert.ReferenceIdeal.ReadP.val_main_v65 (F := Ideal) (a0 m c) (a1 m c) (a2 m c) (a3 m c) (a4 m c) (a5 m c) := by
  refine (W8_arr m ρ c 2).trans ?_
  rw [Cert.KernelIdeal.Stage2.final (V7 m ρ) c,
    show V7 m ρ c main_v58 = Cert.ReferenceIdeal.ReadP.val_main_v61 (F := Ideal) (a0 m c) (a1 m c) (a2 m c) (a3 m c) (a4 m c) from third_entry_scores m ρ c]
  funext i
  obtain ⟨r, s, rfl⟩ : ∃ (r : Fin 50000) (s : Fin 16), i = ix2 r s := ⟨i 0, i 1, eq_ix2 i⟩
  refine (Cert.Spec.biasLogSoftmax_apply _ _ r s).trans ?_
  refine (congrArg (fun z => Cert.SoftmaxRow.logSoftmaxRow z s) (funext fun k => ?_)).trans
    (Cert.SoftmaxReference.result_apply (a0 m c) (a1 m c) (a2 m c) (a3 m c) (a4 m c) (a5 m c) r s).symm
  refine (congrArg (fun z => Cert.ReferenceIdeal.ReadP.val_main_v61 (F := Ideal) (a0 m c) (a1 m c) (a2 m c) (a3 m c) (a4 m c) (ix2 r k) + z) (third_entry_bias m ρ c k)).trans ?_
  exact (Cert.DenseReference.third_bias_apply (a0 m c) (a1 m c) (a2 m c) (a3 m c) (a4 m c) (a5 m c) r k).symm

end Cert.KernelIdeal.Boundary

end
-- ==== Proof.RefStages.lean ====
/-
  The reference's run, stretch by stretch.

  The reference is one straight line of 98 host operations. Its run ends with every buffer at the fold of the operations'
  results over the launch memory. The fold is read in eleven stretches, each from the contents the stretch before left:
  the source and destination rows and the degree (operations 0 … 17), the outlined select (18 … 20), the per-edge weight
  (21 … 39), the first dot_general (40), the first aggregation (41 … 56), the first bias (57 … 59), the outlined relu
  (60 … 62), the second dot_general (63), the second aggregation (64 … 79), the second bias (80 … 82), the outlined
  log_softmax (83 … 97). After each stretch the buffers later stretches read hold the stage functions of the six
  arguments; after the last the result buffer holds the last stage. An outlined function's operations move contents
  between a value's type and its buffer's type; those moves never change a value.
-/
import proofs.«123071_j62199716381547_1_alg».proof.Proof.RefRun
import proofs.«123071_j62199716381547_1_alg».proof.Proof.RefRead
import proofs.«123071_j62199716381547_1_alg».proof.Proof.LibTypedRef
import Idealize.ShloMosaic.Lib.StableHlo.Run

set_option maxRecDepth 16384

noncomputable section

namespace Cert.ReferenceIdeal.Stages

open Cert.ReferenceIdeal Cert.ReferenceIdeal.Gen Cert.ReferenceIdeal.ValueP Cert.LibTypedRef
open Idealize.ShloMosaic Idealize.ShloMosaic.TcCoe Idealize.SL.Sem Idealize.ShloMosaic.StableHlo

/-- A line of operations run in two parts: the first k, then the rest from what they leave. -/
theorem after_split (l : List (HloOp τ sig (Elt Ideal))) (k : ℕ) (V : Valuation τ sig (Elt Ideal)) :
    after l V = after (l.drop k) (after (l.take k) V) := by
  induction k generalizing l V with
  | zero => rfl
  | succ k ih =>
    cases l with
    | nil => rfl
    | cons op t => simp only [List.take_succ_cons, List.drop_succ_cons, after_cons]; exact ih t _

variable (m : (ℓ : Loc nD τ sig) → Buf (Elt Ideal) ℓ) (c : Dev nD)

/-- The buffers' contents after the first k operations. -/
def upTo (k : ℕ) : Valuation τ sig (Elt Ideal) := after ((ops (F := Ideal)).take k) (launchContents m c)

/-- The contents after k operations are operations j … k − 1 run from the contents after j. -/
theorem upTo_step (j k : ℕ) (h : j ≤ k) :
    upTo m c k = after (((ops (F := Ideal)).take k).drop j) (upTo m c j) := by
  unfold upTo
  rw [after_split ((ops (F := Ideal)).take k) j, List.take_take, Nat.min_eq_left h]

/-! ## The float arguments are never written -/

set_option maxHeartbeats 4000000 in
theorem s40_arg0 : upTo m c 40 (Proc.devRef .tc main_arg0) = m ((c.tc : Thread nD τ).loc main_arg0) := by
  show after ((ops (F := Ideal)).take 40) (launchContents m c) (Proc.devRef .tc main_arg0) = _
  simp only [ops, List.take_succ_cons, List.take_zero, List.drop_succ_cons, List.drop_zero]
  after_results_simp <;> rfl
set_option maxHeartbeats 4000000 in
theorem s40_arg2 : upTo m c 40 (Proc.devRef .tc main_arg2) = m ((c.tc : Thread nD τ).loc main_arg2) := by
  show after ((ops (F := Ideal)).take 40) (launchContents m c) (Proc.devRef .tc main_arg2) = _
  simp only [ops, List.take_succ_cons, List.take_zero, List.drop_succ_cons, List.drop_zero]
  after_results_simp <;> rfl
set_option maxHeartbeats 4000000 in
theorem s57_arg3 : upTo m c 57 (Proc.devRef .tc main_arg3) = m ((c.tc : Thread nD τ).loc main_arg3) := by
  show after ((ops (F := Ideal)).take 57) (launchContents m c) (Proc.devRef .tc main_arg3) = _
  simp only [ops, List.take_succ_cons, List.take_zero, List.drop_succ_cons, List.drop_zero]
  after_results_simp <;> rfl
set_option maxHeartbeats 4000000 in
theorem s63_arg4 : upTo m c 63 (Proc.devRef .tc main_arg4) = m ((c.tc : Thread nD τ).loc main_arg4) := by
  show after ((ops (F := Ideal)).take 63) (launchContents m c) (Proc.devRef .tc main_arg4) = _
  simp only [ops, List.take_succ_cons, List.take_zero, List.drop_succ_cons, List.drop_zero]
  after_results_simp <;> rfl
set_option maxHeartbeats 4000000 in
theorem s80_arg5 : upTo m c 80 (Proc.devRef .tc main_arg5) = m ((c.tc : Thread nD τ).loc main_arg5) := by
  show after ((ops (F := Ideal)).take 80) (launchContents m c) (Proc.devRef .tc main_arg5) = _
  simp only [ops, List.take_succ_cons, List.take_zero, List.drop_succ_cons, List.drop_zero]
  after_results_simp <;> rfl

/-! ## Operations 0 … 17: rows, degree -/

theorem s18_v3 : upTo m c 18 (Proc.devRef .tc main_v3) = ReadP.val_main_v3 (F := Ideal) (m ((c.tc : Thread nD τ).loc main_arg1)) := by
  show after ((ops (F := Ideal)).take 18) (launchContents m c) (Proc.devRef .tc main_v3) = _
  simp only [ops, List.take_succ_cons, List.take_zero, List.drop_succ_cons, List.drop_zero]
  after_results
  try rfl
theorem s18_v6 : upTo m c 18 (Proc.devRef .tc main_v6) = ReadP.val_main_v6 (F := Ideal) (m ((c.tc : Thread nD τ).loc main_arg1)) := by
  show after ((ops (F := Ideal)).take 18) (launchContents m c) (Proc.devRef .tc main_v6) = _
  simp only [ops, List.take_succ_cons, List.take_zero, List.drop_succ_cons, List.drop_zero]
  after_results
  try rfl
theorem s18_v12 : upTo m c 18 (Proc.devRef .tc main_v12) = ReadP.val_main_v12 (F := Ideal) (m ((c.tc : Thread nD τ).loc main_arg1)) := by
  show after ((ops (F := Ideal)).take 18) (launchContents m c) (Proc.devRef .tc main_v12) = _
  simp only [ops, List.take_succ_cons, List.take_zero, List.drop_succ_cons, List.drop_zero]
  after_results
  try rfl
theorem s18_v13 : upTo m c 18 (Proc.devRef .tc main_v13) = ReadP.val_main_v13 (F := Ideal) (m ((c.tc : Thread nD τ).loc main_arg1)) := by
  show after ((ops (F := Ideal)).take 18) (launchContents m c) (Proc.devRef .tc main_v13) = _
  simp only [ops, List.take_succ_cons, List.take_zero, List.drop_succ_cons, List.drop_zero]
  after_results
  try rfl
theorem s18_cst_2 : upTo m c 18 (Proc.devRef .tc main_cst_2) = ReadP.val_main_cst_2 (F := Ideal) := by
  show after ((ops (F := Ideal)).take 18) (launchContents m c) (Proc.devRef .tc main_cst_2) = _
  simp only [ops, List.take_succ_cons, List.take_zero, List.drop_succ_cons, List.drop_zero]
  after_results
  try rfl

/-! ## The source and destination rows are carried through every later stretch that needs them -/

theorem s21_v3 : upTo m c 21 (Proc.devRef .tc main_v3) = ReadP.val_main_v3 (F := Ideal) (m ((c.tc : Thread nD τ).loc main_arg1)) := by
  have h0 := s18_v3 m c
  rw [upTo_step m c 18 21 (by decide)]
  generalize upTo m c 18 = Z at h0 ⊢
  simp only [ops, List.take_succ_cons, List.take_zero, List.drop_succ_cons, List.drop_zero]
  after_results_simp
  exact h0
theorem s40_v3 : upTo m c 40 (Proc.devRef .tc main_v3) = ReadP.val_main_v3 (F := Ideal) (m ((c.tc : Thread nD τ).loc main_arg1)) := by
  have h0 := s21_v3 m c
  rw [upTo_step m c 21 40 (by decide)]
  generalize upTo m c 21 = Z at h0 ⊢
  simp only [ops, List.take_succ_cons, List.take_zero, List.drop_succ_cons, List.drop_zero]
  after_results_simp
  exact h0
theorem s41_v3 : upTo m c 41 (Proc.devRef .tc main_v3) = ReadP.val_main_v3 (F := Ideal) (m ((c.tc : Thread nD τ).loc main_arg1)) := by
  have h0 := s40_v3 m c
  rw [upTo_step m c 40 41 (by decide)]
  generalize upTo m c 40 = Z at h0 ⊢
  simp only [ops, List.take_succ_cons, List.take_zero, List.drop_succ_cons, List.drop_zero]
  after_results_simp
  exact h0
theorem s57_v3 : upTo m c 57 (Proc.devRef .tc main_v3) = ReadP.val_main_v3 (F := Ideal) (m ((c.tc : Thread nD τ).loc main_arg1)) := by
  have h0 := s41_v3 m c
  rw [upTo_step m c 41 57 (by decide)]
  generalize upTo m c 41 = Z at h0 ⊢
  simp only [ops, List.take_succ_cons, List.take_zero, List.drop_succ_cons, List.drop_zero]
  after_results_simp
  exact h0
theorem s60_v3 : upTo m c 60 (Proc.devRef .tc main_v3) = ReadP.val_main_v3 (F := Ideal) (m ((c.tc : Thread nD τ).loc main_arg1)) := by
  have h0 := s57_v3 m c
  rw [upTo_step m c 57 60 (by decide)]
  generalize upTo m c 57 = Z at h0 ⊢
  simp only [ops, List.take_succ_cons, List.take_zero, List.drop_succ_cons, List.drop_zero]
  after_results_simp
  exact h0
theorem s63_v3 : upTo m c 63 (Proc.devRef .tc main_v3) = ReadP.val_main_v3 (F := Ideal) (m ((c.tc : Thread nD τ).loc main_arg1)) := by
  have h0 := s60_v3 m c
  rw [upTo_step m c 60 63 (by decide)]
  generalize upTo m c 60 = Z at h0 ⊢
  simp only [ops, List.take_succ_cons, List.take_zero, List.drop_succ_cons, List.drop_zero]
  after_results_simp
  exact h0
theorem s64_v3 : upTo m c 64 (Proc.devRef .tc main_v3) = ReadP.val_main_v3 (F := Ideal) (m ((c.tc : Thread nD τ).loc main_arg1)) := by
  have h0 := s63_v3 m c
  rw [upTo_step m c 63 64 (by decide)]
  generalize upTo m c 63 = Z at h0 ⊢
  simp only [ops, List.take_succ_cons, List.take_zero, List.drop_succ_cons, List.drop_zero]
  after_results_simp
  exact h0
theorem s21_v6 : upTo m c 21 (Proc.devRef .tc main_v6) = ReadP.val_main_v6 (F := Ideal) (m ((c.tc : Thread nD τ).loc main_arg1)) := by
  have h0 := s18_v6 m c
  rw [upTo_step m c 18 21 (by decide)]
  generalize upTo m c 18 = Z at h0 ⊢
  simp only [ops, List.take_succ_cons, List.take_zero, List.drop_succ_cons, List.drop_zero]
  after_results_simp
  exact h0
theorem s40_v6 : upTo m c 40 (Proc.devRef .tc main_v6) = ReadP.val_main_v6 (F := Ideal) (m ((c.tc : Thread nD τ).loc main_arg1)) := by
  have h0 := s21_v6 m c
  rw [upTo_step m c 21 40 (by decide)]
  generalize upTo m c 21 = Z at h0 ⊢
  simp only [ops, List.take_succ_cons, List.take_zero, List.drop_succ_cons, List.drop_zero]
  after_results_simp
  exact h0
theorem s41_v6 : upTo m c 41 (Proc.devRef .tc main_v6) = ReadP.val_main_v6 (F := Ideal) (m ((c.tc : Thread nD τ).loc main_arg1)) := by
  have h0 := s40_v6 m c
  rw [upTo_step m c 40 41 (by decide)]
  generalize upTo m c 40 = Z at h0 ⊢
  simp only [ops, List.take_succ_cons, List.take_zero, List.drop_succ_cons, List.drop_zero]
  after_results_simp
  exact h0
theorem s57_v6 : upTo m c 57 (Proc.devRef .tc main_v6) = ReadP.val_main_v6 (F := Ideal) (m ((c.tc : Thread nD τ).loc main_arg1)) := by
  have h0 := s41_v6 m c
  rw [upTo_step m c 41 57 (by decide)]
  generalize upTo m c 41 = Z at h0 ⊢
  simp only [ops, List.take_succ_cons, List.take_zero, List.drop_succ_cons, List.drop_zero]
  after_results_simp
  exact h0
theorem s60_v6 : upTo m c 60 (Proc.devRef .tc main_v6) = ReadP.val_main_v6 (F := Ideal) (m ((c.tc : Thread nD τ).loc main_arg1)) := by
  have h0 := s57_v6 m c
  rw [upTo_step m c 57 60 (by decide)]
  generalize upTo m c 57 = Z at h0 ⊢
  simp only [ops, List.take_succ_cons, List.take_zero, List.drop_succ_cons, List.drop_zero]
  after_results_simp
  exact h0
theorem s63_v6 : upTo m c 63 (Proc.devRef .tc main_v6) = ReadP.val_main_v6 (F := Ideal) (m ((c.tc : Thread nD τ).loc main_arg1)) := by
  have h0 := s60_v6 m c
  rw [upTo_step m c 60 63 (by decide)]
  generalize upTo m c 60 = Z at h0 ⊢
  simp only [ops, List.take_succ_cons, List.take_zero, List.drop_succ_cons, List.drop_zero]
  after_results_simp
  exact h0
theorem s64_v6 : upTo m c 64 (Proc.devRef .tc main_v6) = ReadP.val_main_v6 (F := Ideal) (m ((c.tc : Thread nD τ).loc main_arg1)) := by
  have h0 := s63_v6 m c
  rw [upTo_step m c 63 64 (by decide)]
  generalize upTo m c 63 = Z at h0 ⊢
  simp only [ops, List.take_succ_cons, List.take_zero, List.drop_succ_cons, List.drop_zero]
  after_results_simp
  exact h0

/-! ## Operations 18 … 20: the outlined select -/

theorem s21_v14 : upTo m c 21 (Proc.devRef .tc main_v14) = ReadP.val_main_v14 (F := Ideal) (m ((c.tc : Thread nD τ).loc main_arg1)) := by
  have h0 := s18_v12 m c
  have h1 := s18_v13 m c
  have h2 := s18_cst_2 m c
  rw [upTo_step m c 18 21 (by decide)]
  generalize upTo m c 18 = Z at h0 h1 h2 ⊢
  simp only [ops, List.take_succ_cons, List.take_zero, List.drop_succ_cons, List.drop_zero]
  after_results
  rw [h0, h1, h2]
  simp only [ofBuf_toBuf]
  rw [ofBuf_of_heq (TRef.of (T := ⟨S50000, .i1⟩) main_v12) (ReadP.val_main_v12 (F := Ideal) (m ((c.tc : Thread nD τ).loc main_arg1))) (ReadP.val_main_v12 (F := Ideal) (m ((c.tc : Thread nD τ).loc main_arg1))) HEq.rfl,
    ofBuf_of_heq (TRef.of (T := ⟨S50000, .f32⟩) main_v13) (ReadP.val_main_v13 (F := Ideal) (m ((c.tc : Thread nD τ).loc main_arg1))) (ReadP.val_main_v13 (F := Ideal) (m ((c.tc : Thread nD τ).loc main_arg1))) HEq.rfl,
    ofBuf_of_heq (TRef.of (T := ⟨S_, .f32⟩) main_cst_2) (ReadP.val_main_cst_2 (F := Ideal)) (ReadP.val_main_cst_2 (F := Ideal)) HEq.rfl]
  refine toBuf_of_heq _ _ _ (heq_of_eq ?_)
  unfold ReadP.val_main_v14 ReadP.val_main_call0_v1 ReadP.val_main_call0_v0
  rfl

/-! ## Operations 21 … 39: the per-edge weight, carried through the later stretches -/

theorem s40_v29 : upTo m c 40 (Proc.devRef .tc main_v29) = ReadP.val_main_v29 (F := Ideal) (m ((c.tc : Thread nD τ).loc main_arg1)) := by
  have h0 := s21_v14 m c
  have h1 := s21_v3 m c
  have h2 := s21_v6 m c
  rw [upTo_step m c 21 40 (by decide)]
  generalize upTo m c 21 = Z at h0 h1 h2 ⊢
  simp only [ops, List.take_succ_cons, List.take_zero, List.drop_succ_cons, List.drop_zero]
  after_results_simp
  rw [h0, h1, h2]
  unfold ReadP.val_main_v29 ReadP.val_main_v21 ReadP.val_main_v28 ReadP.val_main_v20 ReadP.val_main_v27 ReadP.val_main_v19 ReadP.val_main_v26 ReadP.val_main_v16 ReadP.val_main_v18 ReadP.val_main_v23 ReadP.val_main_v25 ReadP.val_main_v15 ReadP.val_main_v17 ReadP.val_main_v22 ReadP.val_main_v24 ReadP.val_main_c ReadP.val_main_c_3 ReadP.val_main_c_4 ReadP.val_main_c_5
  rfl
theorem s41_v29 : upTo m c 41 (Proc.devRef .tc main_v29) = ReadP.val_main_v29 (F := Ideal) (m ((c.tc : Thread nD τ).loc main_arg1)) := by
  have h0 := s40_v29 m c
  rw [upTo_step m c 40 41 (by decide)]
  generalize upTo m c 40 = Z at h0 ⊢
  simp only [ops, List.take_succ_cons, List.take_zero, List.drop_succ_cons, List.drop_zero]
  after_results_simp
  exact h0
theorem s57_v29 : upTo m c 57 (Proc.devRef .tc main_v29) = ReadP.val_main_v29 (F := Ideal) (m ((c.tc : Thread nD τ).loc main_arg1)) := by
  have h0 := s41_v29 m c
  rw [upTo_step m c 41 57 (by decide)]
  generalize upTo m c 41 = Z at h0 ⊢
  simp only [ops, List.take_succ_cons, List.take_zero, List.drop_succ_cons, List.drop_zero]
  after_results_simp
  exact h0
theorem s60_v29 : upTo m c 60 (Proc.devRef .tc main_v29) = ReadP.val_main_v29 (F := Ideal) (m ((c.tc : Thread nD τ).loc main_arg1)) := by
  have h0 := s57_v29 m c
  rw [upTo_step m c 57 60 (by decide)]
  generalize upTo m c 57 = Z at h0 ⊢
  simp only [ops, List.take_succ_cons, List.take_zero, List.drop_succ_cons, List.drop_zero]
  after_results_simp
  exact h0
theorem s63_v29 : upTo m c 63 (Proc.devRef .tc main_v29) = ReadP.val_main_v29 (F := Ideal) (m ((c.tc : Thread nD τ).loc main_arg1)) := by
  have h0 := s60_v29 m c
  rw [upTo_step m c 60 63 (by decide)]
  generalize upTo m c 60 = Z at h0 ⊢
  simp only [ops, List.take_succ_cons, List.take_zero, List.drop_succ_cons, List.drop_zero]
  after_results_simp
  exact h0
theorem s64_v29 : upTo m c 64 (Proc.devRef .tc main_v29) = ReadP.val_main_v29 (F := Ideal) (m ((c.tc : Thread nD τ).loc main_arg1)) := by
  have h0 := s63_v29 m c
  rw [upTo_step m c 63 64 (by decide)]
  generalize upTo m c 63 = Z at h0 ⊢
  simp only [ops, List.take_succ_cons, List.take_zero, List.drop_succ_cons, List.drop_zero]
  after_results_simp
  exact h0

/-! ## Operation 40: the first dot_general -/

theorem s41_v30 : upTo m c 41 (Proc.devRef .tc main_v30) = ReadP.val_main_v30 (F := Ideal) (m ((c.tc : Thread nD τ).loc main_arg0)) (m ((c.tc : Thread nD τ).loc main_arg2)) := by
  have h0 := s40_arg0 m c
  have h1 := s40_arg2 m c
  rw [upTo_step m c 40 41 (by decide)]
  generalize upTo m c 40 = Z at h0 h1 ⊢
  simp only [ops, List.take_succ_cons, List.take_zero, List.drop_succ_cons, List.drop_zero]
  after_results_simp
  rw [h0, h1]
  unfold ReadP.val_main_v30
  rfl

/-! ## Operations 41 … 56: the first aggregation -/

theorem s57_v43 : upTo m c 57 (Proc.devRef .tc main_v43) = ReadP.val_main_v43 (F := Ideal) (m ((c.tc : Thread nD τ).loc main_arg0)) (m ((c.tc : Thread nD τ).loc main_arg1)) (m ((c.tc : Thread nD τ).loc main_arg2)) := by
  have h0 := s41_v30 m c
  have h1 := s41_v3 m c
  have h2 := s41_v6 m c
  have h3 := s41_v29 m c
  rw [upTo_step m c 41 57 (by decide)]
  generalize upTo m c 41 = Z at h0 h1 h2 h3 ⊢
  simp only [ops, List.take_succ_cons, List.take_zero, List.drop_succ_cons, List.drop_zero]
  after_results_simp
  rw [h0, h1, h2, h3]
  unfold ReadP.val_main_v43 ReadP.val_main_v41 ReadP.val_main_v42 ReadP.val_main_v40 ReadP.val_main_v37 ReadP.val_main_v39 ReadP.val_main_v38 ReadP.val_main_v36 ReadP.val_main_v35 ReadP.val_main_v32 ReadP.val_main_v34 ReadP.val_main_v31 ReadP.val_main_v33 ReadP.val_main_c_6 ReadP.val_main_c_7 ReadP.val_main_cst_8
  rfl

/-! ## Operations 57 … 59: the first bias -/

theorem s60_v46 : upTo m c 60 (Proc.devRef .tc main_v46) = ReadP.val_main_v46 (F := Ideal) (m ((c.tc : Thread nD τ).loc main_arg0)) (m ((c.tc : Thread nD τ).loc main_arg1)) (m ((c.tc : Thread nD τ).loc main_arg2)) (m ((c.tc : Thread nD τ).loc main_arg3)) := by
  have h0 := s57_v43 m c
  have h1 := s57_arg3 m c
  rw [upTo_step m c 57 60 (by decide)]
  generalize upTo m c 57 = Z at h0 h1 ⊢
  simp only [ops, List.take_succ_cons, List.take_zero, List.drop_succ_cons, List.drop_zero]
  after_results_simp
  rw [h0, h1]
  unfold ReadP.val_main_v46 ReadP.val_main_v45 ReadP.val_main_v44
  rfl

/-! ## Operations 60 … 62: the outlined relu -/

theorem s63_v47 : upTo m c 63 (Proc.devRef .tc main_v47) = ReadP.val_main_v47 (F := Ideal) (m ((c.tc : Thread nD τ).loc main_arg0)) (m ((c.tc : Thread nD τ).loc main_arg1)) (m ((c.tc : Thread nD τ).loc main_arg2)) (m ((c.tc : Thread nD τ).loc main_arg3)) := by
  have h0 := s60_v46 m c
  rw [upTo_step m c 60 63 (by decide)]
  generalize upTo m c 60 = Z at h0 ⊢
  simp only [ops, List.take_succ_cons, List.take_zero, List.drop_succ_cons, List.drop_zero]
  after_results
  rw [h0]
  simp only [ofBuf_toBuf]
  rw [ofBuf_of_heq (TRef.of (T := ⟨S50000x128, .f32⟩) main_v46) (ReadP.val_main_v46 (F := Ideal) (m ((c.tc : Thread nD τ).loc main_arg0)) (m ((c.tc : Thread nD τ).loc main_arg1)) (m ((c.tc : Thread nD τ).loc main_arg2)) (m ((c.tc : Thread nD τ).loc main_arg3))) (ReadP.val_main_v46 (F := Ideal) (m ((c.tc : Thread nD τ).loc main_arg0)) (m ((c.tc : Thread nD τ).loc main_arg1)) (m ((c.tc : Thread nD τ).loc main_arg2)) (m ((c.tc : Thread nD τ).loc main_arg3))) HEq.rfl]
  refine toBuf_of_heq _ _ _ (heq_of_eq ?_)
  unfold ReadP.val_main_v47 ReadP.val_main_call1_v0 ReadP.val_main_call1_cst
  rfl

/-! ## Operation 63: the second dot_general -/

theorem s64_v48 : upTo m c 64 (Proc.devRef .tc main_v48) = ReadP.val_main_v48 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  have h0 := s63_v47 m c
  have h1 := s63_arg4 m c
  rw [upTo_step m c 63 64 (by decide)]
  generalize upTo m c 63 = Z at h0 h1 ⊢
  simp only [ops, List.take_succ_cons, List.take_zero, List.drop_succ_cons, List.drop_zero]
  after_results_simp
  rw [h0, h1]
  unfold ReadP.val_main_v48
  rfl

/-! ## Operations 64 … 79: the second aggregation -/

theorem s80_v61 : upTo m c 80 (Proc.devRef .tc main_v61) = ReadP.val_main_v61 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  have h0 := s64_v48 m c
  have h1 := s64_v3 m c
  have h2 := s64_v6 m c
  have h3 := s64_v29 m c
  rw [upTo_step m c 64 80 (by decide)]
  generalize upTo m c 64 = Z at h0 h1 h2 h3 ⊢
  simp only [ops, List.take_succ_cons, List.take_zero, List.drop_succ_cons, List.drop_zero]
  after_results_simp
  rw [h0, h1, h2, h3]
  unfold ReadP.val_main_v61 ReadP.val_main_v59 ReadP.val_main_v60 ReadP.val_main_v58 ReadP.val_main_v55 ReadP.val_main_v57 ReadP.val_main_v56 ReadP.val_main_v54 ReadP.val_main_v53 ReadP.val_main_v50 ReadP.val_main_v52 ReadP.val_main_v49 ReadP.val_main_v51 ReadP.val_main_c_9 ReadP.val_main_c_10 ReadP.val_main_cst_11
  rfl

/-! ## Operations 80 … 82: the second bias -/

theorem s83_v64 : upTo m c 83 (Proc.devRef .tc main_v64) = ReadP.val_main_v64 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  have h0 := s80_v61 m c
  have h1 := s80_arg5 m c
  rw [upTo_step m c 80 83 (by decide)]
  generalize upTo m c 80 = Z at h0 h1 ⊢
  simp only [ops, List.take_succ_cons, List.take_zero, List.drop_succ_cons, List.drop_zero]
  after_results_simp
  rw [h0, h1]
  unfold ReadP.val_main_v64 ReadP.val_main_v63 ReadP.val_main_v62
  rfl

/-! ## Operations 83 … 97: the outlined log_softmax; the result -/

/-- After the whole line the result buffer holds the last stage of the six arguments. -/
theorem result : after (ops (F := Ideal)) (launchContents m c) (Proc.devRef .tc main_v65) = ReadP.val_main_v65 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  have h0 := s83_v64 m c
  rw [after_split (ops (F := Ideal)) 83]
  show after ((ops (F := Ideal)).drop 83) (upTo m c 83) (Proc.devRef .tc main_v65) = _
  generalize upTo m c 83 = Z at h0 ⊢
  simp only [ops, List.drop_succ_cons, List.drop_zero]
  after_results
  rw [h0]
  simp only [ofBuf_toBuf]
  rw [ofBuf_of_heq (TRef.of (T := ⟨S50000x16, .f32⟩) main_v64) (ReadP.val_main_v64 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))) (ReadP.val_main_v64 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))) HEq.rfl]
  refine toBuf_of_heq _ _ _ (heq_of_eq ?_)
  unfold ReadP.val_main_v65 ReadP.val_main_call2_v10 ReadP.val_main_call2_v9 ReadP.val_main_call2_v8 ReadP.val_main_call2_v7 ReadP.val_main_call2_cst_1 ReadP.val_main_call2_v6 ReadP.val_main_call2_v5 ReadP.val_main_call2_v4 ReadP.val_main_call2_v3 ReadP.val_main_call2_v2 ReadP.val_main_call2_v1 ReadP.val_main_call2_cst_0 ReadP.val_main_call2_v0 ReadP.val_main_call2_cst
  rfl

set_option maxHeartbeats 40000000 in
/-- Every weakly fair execution of the reference terminates, nothing faulting, with the result at the last stage of the
    six arguments and the arguments unchanged. -/
theorem run (ρ : Dev nD → PrngReg) :
    θ_run defs (onTc (τ := τ) (main (F := Ideal))) ⟨m, fun _ => 0, ρ⟩ fun r => ∀ c : Dev nD,
      r.2.mem ((c.tc : Thread nD τ).loc main_v65) = ReadP.val_main_v65 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v65).trans (result m c),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl)⟩)
    (run_seq scopedRefs_eq scopedSems_eq defs main (fun _ => ops) main_eq (fun _ => ops_sub) m ρ)

end Cert.ReferenceIdeal.Stages

end
-- ==== Proof.lean ====
/-
  Two graph-convolution layers with symmetric normalisation, a relu between them and a log-softmax after them: the
  kernel against its reference, on the extended reals.

  Both programs compute, from the edge list alone, the source rows, the destination rows and the per-edge weight
  d(source)^(-1/2) · d(destination)^(-1/2) with the SAME host operations; each layer transforms the node features by a
  matrix product, gathers the transformed rows at the edges' sources, scales them by the weights and scatter-adds them at
  the edges' destinations, again with the same host operations in both programs. The programs differ only in the dense
  stages. The kernel computes them in three launches over ten row blocks of 5000 nodes: x·W1; then (bias, relu)·W2; then
  bias and log-softmax. The reference computes them on the host: a dot_general; a bias add, a maximum with 0 and a
  dot_general; a bias add and jax's log_softmax (row maximum from -inf, shift, exponential, row sum, logarithm, shift).
  On the extended reals a matrix product in ten row blocks is the matrix product — a block's entry is the same sum over
  the 128 contraction coordinates —, a change of float format is the identity, the lane maximum and the lane sum of a
  block's row are the row's maximum and sum, and every other step is pointwise: so stage by stage the kernel's buffers
  hold the reference's stages of the six arguments (Proof/Layers.lean over Proof/EdgeData.lean and the three launches'
  whole-array values Proof/Region0.lean … Region2.lean), and the two results are equal. No law of the extended reals
  beyond reading both sides at an index is used, so the precondition (finite inputs) is never opened.

  The frames of the two kernel programs are the generated ones; the reference's frame is its run (Proof/RefStages.lean) with
  the result dropped; the ideal pass rewrote nothing, so there is nothing to preserve.
-/
import proofs.«123071_j62199716381547_1_alg».proof.Defs
import proofs.«123071_j62199716381547_1_alg».proof.Proof.Gen.Kernel
import proofs.«123071_j62199716381547_1_alg».proof.Proof.Gen.Kernel.Skeleton
import proofs.«123071_j62199716381547_1_alg».proof.Proof.Gen.Kernel.Launch
import proofs.«123071_j62199716381547_1_alg».proof.Proof.Gen.Kernel.Points
import proofs.«123071_j62199716381547_1_alg».proof.Proof.Gen.Kernel.Frame
import proofs.«123071_j62199716381547_1_alg».proof.Proof.Gen.KernelIdeal
import proofs.«123071_j62199716381547_1_alg».proof.Proof.Gen.KernelIdeal.Skeleton
import proofs.«123071_j62199716381547_1_alg».proof.Proof.Gen.KernelIdeal.Launch
import proofs.«123071_j62199716381547_1_alg».proof.Proof.Gen.KernelIdeal.Points
import proofs.«123071_j62199716381547_1_alg».proof.Proof.Gen.KernelIdeal.Frame
import proofs.«123071_j62199716381547_1_alg».proof.Proof.Gen.ReferenceIdeal
import proofs.«123071_j62199716381547_1_alg».proof.Proof.Gen.Pre_finite_inputs
import proofs.«123071_j62199716381547_1_alg».proof.Proof.KernelRun
import proofs.«123071_j62199716381547_1_alg».proof.Proof.Layers
import proofs.«123071_j62199716381547_1_alg».proof.Proof.RefStages
import Idealize.ShloMosaic.Adequacy
import Idealize.ShloMosaic.Init

noncomputable section

namespace Cert.Proof

open Idealize.ShloMosaic Idealize.SL.Sem

/-- The word-level kernel runs and leaves its arguments as launched. -/
theorem frame_kernel : Cert.frame_Kernel := fun m ρ _ => Cert.Kernel.Gen.frame m ρ

/-- The idealized kernel runs and leaves its arguments as launched. -/
theorem frame_kernel_ideal : Cert.frame_KernelIdeal := fun m ρ _ => Cert.KernelIdeal.Gen.frame m ρ

/-- The reference runs and leaves its arguments as launched: its run, the result dropped. -/
theorem frame_reference : Cert.frame_ReferenceIdeal := fun m ρ _ =>
  (θ_run Cert.ReferenceIdeal.defs _ _).mono (fun _ h c => (h c).2) (Cert.ReferenceIdeal.Stages.run m ρ)

/-- The ideal pass rewrote no operation. -/
theorem preserves : Cert.preserves_Kernel_KernelIdeal := trivial

/-- From memories agreeing on the six arguments both programs end with the result at the reference's last stage of the
    arguments: the kernel by its boundaries' values, the reference by its run. -/
theorem algebraic : Cert.algebraic_KernelIdeal_ReferenceIdeal := by
  intro m ρ m' ρ' _ hagree
  refine ⟨fun c => Cert.ReferenceIdeal.ReadP.val_main_v65 (F := Ideal) (Cert.KernelIdeal.Boundary.a0 m c)
    (Cert.KernelIdeal.Boundary.a1 m c) (Cert.KernelIdeal.Boundary.a2 m c) (Cert.KernelIdeal.Boundary.a3 m c)
    (Cert.KernelIdeal.Boundary.a4 m c) (Cert.KernelIdeal.Boundary.a5 m c), ?_, ?_⟩
  · exact (θ_run Cert.KernelIdeal.defs _ _).mono
      (fun _ h c => ⟨(h c).1.trans (Cert.KernelIdeal.Boundary.result m ρ c), (h c).2⟩)
      (Cert.KernelIdeal.ResultRun.run m ρ)
  · refine (θ_run Cert.ReferenceIdeal.defs _ _).mono (fun _ h c => ⟨(h c).1.trans ?_, (h c).2⟩)
      (Cert.ReferenceIdeal.Stages.run m' ρ')
    rw [(hagree c).1, (hagree c).2.1, (hagree c).2.2.1, (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
